-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S64x2 .f32) (main_arg10 : FVec F S2 .f32) (main_v33 : IVec S_ 1) : IVec S_ 1 :=
  let main_v34 : FVec F S64x2 .f32 := Host.absf main_arg9
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128 .f32) (main_arg7 : FVec F S128x64 .f32) (main_arg8 : FVec F S64 .f32) (main_arg9 : FVec F S64x2 .f32) (main_arg10 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S64x2 .f32) (main_arg10 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S5000x128 : Shape := ⟨2, ![5000, 128]⟩
abbrev S800000x128 : Shape := ⟨2, ![800000, 128]⟩
abbrev S1x128 : Shape := ⟨2, ![1, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩
abbrev S1x64 : Shape := ⟨2, ![1, 64]⟩
abbrev S1x2 : Shape := ⟨2, ![1, 2]⟩
abbrev S256x2 : Shape := ⟨2, ![256, 2]⟩
abbrev S256x64 : Shape := ⟨2, ![256, 64]⟩

abbrev nBuf : Space → Nat
  | .hbm => 127
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x2, .f32⟩
  | .hbm, ⟨10, _⟩ => ⟨S2, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000, .f32⟩
  | .hbm, ⟨50, _⟩ => ⟨S800000, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S800000x1, .f32⟩
  | .hbm, ⟨62, _⟩ => ⟨S800000x128, .f32⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x128, .f32⟩
  | .hbm, ⟨80, _⟩ => ⟨S800000x1, .f32⟩
  | .hbm, ⟨81, _⟩ => ⟨S800000x128, .f32⟩
  | .hbm, ⟨82, _⟩ => ⟨S800000x128, .f32⟩
  | .hbm, ⟨83, _⟩ => ⟨S_, .f32⟩
  | .hbm, ⟨84, _⟩ => ⟨S50000x128, .f32⟩
  | .hbm, ⟨85, _⟩ => ⟨S800000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .i32⟩
  | .hbm, ⟨91, _⟩ => ⟨S800000, .i32⟩
  | .hbm, ⟨92, _⟩ => ⟨S800000, .i1⟩
  | .hbm, ⟨93, _⟩ => ⟨S_, .i32⟩
  | .hbm, ⟨94, _⟩ => ⟨S800000, .i32⟩
  | .hbm, ⟨95, _⟩ => ⟨S800000, .i32⟩
  | .hbm, ⟨96, _⟩ => ⟨S800000, .i32⟩
  | .hbm, ⟨97, _⟩ => ⟨S800000x1, .i32⟩
  | .hbm, ⟨98, _⟩ => ⟨S800000x128, .f32⟩
  | .hbm, ⟨99, _⟩ => ⟨S800000x1, .f32⟩
  | .hbm, ⟨100, _⟩ => ⟨S800000x128, .f32⟩
  | .hbm, ⟨101, _⟩ => ⟨S800000x128, .f32⟩
  | .hbm, ⟨102, _⟩ => ⟨S_, .f32⟩
  | .hbm, ⟨103, _⟩ => ⟨S50000x128, .f32⟩
  | .hbm, ⟨104, _⟩ => ⟨S800000x1, .i32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S_, .f32⟩
  | .hbm, ⟨109, _⟩ => ⟨S256x128, .f32⟩
  | .hbm, ⟨110, _⟩ => ⟨S50000x1, .i32⟩
  | .hbm, ⟨111, _⟩ => ⟨S256x128, .f32⟩
  | .hbm, ⟨112, _⟩ => ⟨S_, .f32⟩
  | .hbm, ⟨113, _⟩ => ⟨S50000, .f32⟩
  | .hbm, ⟨114, _⟩ => ⟨S_, .f32⟩
  | .hbm, ⟨115, _⟩ => ⟨S256, .f32⟩
  | .hbm, ⟨116, _⟩ => ⟨S50000x1, .i32⟩
  | .hbm, ⟨117, _⟩ => ⟨S256, .f32⟩
  | .hbm, ⟨118, _⟩ => ⟨S_, .f32⟩
  | .hbm, ⟨119, _⟩ => ⟨S256, .f32⟩
  | .hbm, ⟨120, _⟩ => ⟨S256, .f32⟩
  | .hbm, ⟨121, _⟩ => ⟨S256x1, .f32⟩
  | .hbm, ⟨122, _⟩ => ⟨S256x128, .f32⟩
  | .hbm, ⟨123, _⟩ => ⟨S256x128, .f32⟩
  | .hbm, ⟨124, _⟩ => ⟨S1x64, .f32⟩
  | .hbm, ⟨125, _⟩ => ⟨S1x2, .f32⟩
  | .hbm, ⟨126, _⟩ => ⟨S256x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S256x128, .f32⟩
  | .local _ .vmem, ⟨31, _⟩ => ⟨S128x64, .f32⟩
  | .local _ .vmem, ⟨32, _⟩ => ⟨S1x64, .f32⟩
  | .local _ .vmem, ⟨33, _⟩ => ⟨S64x2, .f32⟩
  | .local _ .vmem, ⟨34, _⟩ => ⟨S1x2, .f32⟩
  | .local _ .vmem, ⟨35, _⟩ => ⟨S256x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_c_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_10 : Ref sig .tc := ⟨.hbm, 71, rfl⟩
abbrev main_v46 : Ref sig .tc := ⟨.hbm, 72, rfl⟩
abbrev main_v47 : Ref sig .tc := ⟨.hbm, 73, rfl⟩
abbrev main_c_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_15 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_17 : Ref sig .tc := ⟨.hbm, 112, rfl⟩
abbrev main_v80 : Ref sig .tc := ⟨.hbm, 113, rfl⟩
abbrev main_cst_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_19 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc6_stg4_0 : Ref sig .tc := ⟨.vmem, 34, rfl⟩
abbrev cc6_stg5_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33
abbrev cc6_sem4_0 : DmaSem sig := 34
abbrev cc6_sem5_0 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S256x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x2 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x2 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S256x128 : S_.BroadcastsInDim S256x128 (![] : Fin 0 → Fin S256x128.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  shapeCasts_S64_S1x64 : S64.ShapeCasts S1x64
  shapeCasts_S2_S1x2 : S2.ShapeCasts S1x2
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  reduces_S256x2_S256 : S256x2.Reduces [1] S256
  shapeCasts_S256_S256x1 : S256.ShapeCasts S256x1
  broadcasts_S256x1_S256x2 : S256x1.Broadcasts S256x2
  inb_S256x2_S256x2_0_0 : ∀ a, (![0, 0] : Fin 2 → Nat) a + S256x2.size a ≤ S256x2.size a
  h_S256x2 : 0 < S256x2.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x64_S256x64_1_0_0_1_n_n_wf : DotDims.WF S256x128 S128x64 S256x64 [1] [0] [0] [1] [] []
  dot_S256x64_S64x2_S256x2_1_0_0_1_n_n_wf : DotDims.WF S256x64 S64x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S256x128.size a ≤ S256x128.size a
  hwx6_0 : ∀ i : grid6.Coords, EltTy.bits .f32 = 32 ∨ (Rect.block (s := S256x128) S256x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x2.size a ≤ S64x2.size a
  hwx6_3 : ∀ i : grid6.Coords, EltTy.bits .f32 = 32 ∨ (Rect.block (s := S64x2) S64x2.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x2.size a ≤ S1x2.size a
  hwx6_4 : ∀ i : grid6.Coords, EltTy.bits .f32 = 32 ∨ (Rect.block (s := S1x2) S1x2.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x2.size a ≤ S256x2.size a
  hwx6_5 : ∀ i : grid6.Coords, EltTy.bits .f32 = 32 ∨ (Rect.block (s := S256x2) S256x2.size (cc6_transform_5 i) (hinb6_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v88) S256x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v89) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg9) S64x2.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v90) S1x2.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v91) S256x2.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩
abbrev S256x64 : Shape := ⟨2, ![256, 64]⟩
abbrev S1x64 : Shape := ⟨2, ![1, 64]⟩
abbrev S256x2 : Shape := ⟨2, ![256, 2]⟩
abbrev S1x2 : Shape := ⟨2, ![1, 2]⟩

abbrev nBuf : Space → Nat
  | .hbm => 230
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S64x2, .f32⟩
  | 10 => ⟨S2, .f32⟩
  | 11 => ⟨S1x800000, .i32⟩
  | 12 => ⟨S800000, .i32⟩
  | 13 => ⟨S1x800000, .i32⟩
  | 14 => ⟨S800000, .i32⟩
  | 15 => ⟨S50000x128, .f32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S800000, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S800000x1, .f32⟩
  | 62 => ⟨S800000x128, .f32⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .f32⟩
  | 76 => ⟨S800000, .f32⟩
  | 77 => ⟨S_, .f32⟩
  | 78 => ⟨S50000, .f32⟩
  | 79 => ⟨S800000x1, .i32⟩
  | 80 => ⟨S50000, .f32⟩
  | 81 => ⟨S_, .f32⟩
  | 82 => ⟨S50000, .f32⟩
  | 83 => ⟨S50000, .i1⟩
  | 84 => ⟨S_, .f32⟩
  | 85 => ⟨S50000, .f32⟩
  | 86 => ⟨S50000, .f32⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000, .f32⟩
  | 110 => ⟨S800000, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S800000x1, .f32⟩
  | 121 => ⟨S800000x128, .f32⟩
  | 122 => ⟨S800000x128, .f32⟩
  | 123 => ⟨S_, .f32⟩
  | 124 => ⟨S50000x128, .f32⟩
  | 125 => ⟨S800000x1, .i32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S50000x128, .f32⟩
  | 6 => ⟨S_, .f32⟩
  | 7 => ⟨S800000, .f32⟩
  | 8 => ⟨S_, .f32⟩
  | 9 => ⟨S50000, .f32⟩
  | 10 => ⟨S800000x1, .i32⟩
  | 11 => ⟨S50000, .f32⟩
  | 12 => ⟨S_, .f32⟩
  | 13 => ⟨S50000, .f32⟩
  | 14 => ⟨S50000, .i1⟩
  | 15 => ⟨S_, .f32⟩
  | 16 => ⟨S50000, .f32⟩
  | 17 => ⟨S50000, .f32⟩
  | 18 => ⟨S50000, .f32⟩
  | 19 => ⟨S_, .f32⟩
  | 20 => ⟨S_, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S800000x1, .f32⟩
  | 52 => ⟨S800000x128, .f32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S1x128, .f32⟩
  | 59 => ⟨S50000x128, .f32⟩
  | 60 => ⟨S50000x128, .f32⟩
  | 61 => ⟨S_, .f32⟩
  | 62 => ⟨S256x128, .f32⟩
  | 63 => ⟨S50000x1, .i32⟩
  | 64 => ⟨S256x128, .f32⟩
  | 65 => ⟨S_, .f32⟩
  | 66 => ⟨S50000, .f32⟩
  | 67 => ⟨S_, .f32⟩
  | 68 => ⟨S256, .f32⟩
  | 69 => ⟨S50000x1, .i32⟩
  | 70 => ⟨S256, .f32⟩
  | 71 => ⟨S_, .f32⟩
  | 72 => ⟨S256, .f32⟩
  | 73 => ⟨S256, .f32⟩
  | 74 => ⟨S256x1, .f32⟩
  | 75 => ⟨S256x128, .f32⟩
  | 76 => ⟨S256x128, .f32⟩
  | 77 => ⟨S256x64, .f32⟩
  | 78 => ⟨S1x64, .f32⟩
  | 79 => ⟨S256x64, .f32⟩
  | 80 => ⟨S256x64, .f32⟩
  | 81 => ⟨S_, .f32⟩
  | 82 => ⟨S256x64, .f32⟩
  | 83 => ⟨S256x64, .f32⟩
  | 84 => ⟨S256x2, .f32⟩
  | 85 => ⟨S1x2, .f32⟩
  | 86 => ⟨S256x2, .f32⟩
  | 87 => ⟨S256x2, .f32⟩
  | 88 => ⟨S_, .f32⟩
  | 89 => ⟨S256, .f32⟩
  | 90 => ⟨S_, .f32⟩
  | 91 => ⟨S256, .f32⟩
  | 92 => ⟨S256, .f32⟩
  | 93 => ⟨S256x1, .f32⟩
  | 94 => ⟨S256x2, .f32⟩
  | 95 => ⟨S256x2, .f32⟩
  | 96 => ⟨S256x2, .f32⟩
  | 97 => ⟨S_, .f32⟩
  | 98 => ⟨S256, .f32⟩
  | 99 => ⟨S256x1, .f32⟩
  | 100 => ⟨S256x2, .f32⟩
  | 101 => ⟨S256x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_c_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call1_cst : Ref sig .tc := ⟨.hbm, 71, rfl⟩
abbrev main_call1_v0 : Ref sig .tc := ⟨.hbm, 72, rfl⟩
abbrev main_v46 : Ref sig .tc := ⟨.hbm, 73, rfl⟩
abbrev main_v47 : Ref sig .tc := ⟨.hbm, 74, rfl⟩
abbrev main_cst_10 : Ref sig .tc := ⟨.hbm, 75, rfl⟩
abbrev main_v48 : Ref sig .tc := ⟨.hbm, 76, rfl⟩
abbrev main_cst_11 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_12 : Ref sig .tc := ⟨.hbm, 81, rfl⟩
abbrev main_v52 : Ref sig .tc := ⟨.hbm, 82, rfl⟩
abbrev main_v53 : Ref sig .tc := ⟨.hbm, 83, rfl⟩
abbrev main_cst_13 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_14 : Ref sig .tc := ⟨.hbm, 88, rfl⟩
abbrev main_call2_v0 : Ref sig .tc := ⟨.hbm, 89, rfl⟩
abbrev main_call2_v1 : Ref sig .tc := ⟨.hbm, 90, rfl⟩
abbrev main_v57 : Ref sig .tc := ⟨.hbm, 91, rfl⟩
abbrev main_c_15 : Ref sig .tc := ⟨.hbm, 92, rfl⟩
abbrev main_v58 : Ref sig .tc := ⟨.hbm, 93, rfl⟩
abbrev main_v59 : Ref sig .tc := ⟨.hbm, 94, rfl⟩
abbrev main_c_16 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_17 : Ref sig .tc := ⟨.hbm, 101, rfl⟩
abbrev main_v65 : Ref sig .tc := ⟨.hbm, 102, rfl⟩
abbrev main_v66 : Ref sig .tc := ⟨.hbm, 103, rfl⟩
abbrev main_c_18 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_19 : Ref sig .tc := ⟨.hbm, 111, rfl⟩
abbrev main_v73 : Ref sig .tc := ⟨.hbm, 112, rfl⟩
abbrev main_v74 : Ref sig .tc := ⟨.hbm, 113, rfl⟩
abbrev main_c_20 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_21 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_call3_cst : Ref sig .tc := ⟨.hbm, 130, rfl⟩
abbrev main_call3_v0 : Ref sig .tc := ⟨.hbm, 131, rfl⟩
abbrev main_v89 : Ref sig .tc := ⟨.hbm, 132, rfl⟩
abbrev main_v90 : Ref sig .tc := ⟨.hbm, 133, rfl⟩
abbrev main_cst_22 : Ref sig .tc := ⟨.hbm, 134, rfl⟩
abbrev main_v91 : Ref sig .tc := ⟨.hbm, 135, rfl⟩
abbrev main_cst_23 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_24 : Ref sig .tc := ⟨.hbm, 140, rfl⟩
abbrev main_v95 : Ref sig .tc := ⟨.hbm, 141, rfl⟩
abbrev main_v96 : Ref sig .tc := ⟨.hbm, 142, rfl⟩
abbrev main_cst_25 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_26 : Ref sig .tc := ⟨.hbm, 147, rfl⟩
abbrev main_call4_v0 : Ref sig .tc := ⟨.hbm, 148, rfl⟩
abbrev main_call4_v1 : Ref sig .tc := ⟨.hbm, 149, rfl⟩
abbrev main_v100 : Ref sig .tc := ⟨.hbm, 150, rfl⟩
abbrev main_c_27 : Ref sig .tc := ⟨.hbm, 151, rfl⟩
abbrev main_v101 : Ref sig .tc := ⟨.hbm, 152, rfl⟩
abbrev main_v102 : Ref sig .tc := ⟨.hbm, 153, rfl⟩
abbrev main_c_28 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_c_29 : Ref sig .tc := ⟨.hbm, 160, rfl⟩
abbrev main_v108 : Ref sig .tc := ⟨.hbm, 161, rfl⟩
abbrev main_v109 : Ref sig .tc := ⟨.hbm, 162, rfl⟩
abbrev main_c_30 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_c_31 : Ref sig .tc := ⟨.hbm, 170, rfl⟩
abbrev main_v116 : Ref sig .tc := ⟨.hbm, 171, rfl⟩
abbrev main_v117 : Ref sig .tc := ⟨.hbm, 172, rfl⟩
abbrev main_c_32 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_cst_33 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_cst_34 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_cst_35 : Ref sig .tc := ⟨.hbm, 193, rfl⟩
abbrev main_v135 : Ref sig .tc := ⟨.hbm, 194, rfl⟩
abbrev main_cst_36 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_cst_37 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_call5_cst : Ref sig .tc := ⟨.hbm, 209, rfl⟩
abbrev main_call5_v0 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_cst_38 : Ref sig .tc := ⟨.hbm, 216, rfl⟩
abbrev main_v153 : Ref sig .tc := ⟨.hbm, 217, rfl⟩
abbrev main_cst_39 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_cst_40 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256x128 : S_.BroadcastsInDim S256x128 (![] : Fin 0 → Fin S256x128.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  reducesTo_S256x2_S256_d1 : S256x2.ReducesTo [1] S256
  h_S_ : 0 < S_.numel
  bcast_S256x1_S256x2_0_1 : S256x1.BroadcastsInDim S256x2 (![0, 1] : Fin 2 → Fin S256x2.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x64_S256x64_1_0_0_1_n_n_wf : DotDims.WF S256x128 S128x64 S256x64 [1] [0] [0] [1] [] []
  dot_S256x64_S64x2_S256x2_1_0_0_1_n_n_wf : DotDims.WF S256x64 S64x2 S256x2 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

class Facts : Prop extends Facts₀ where

variable [Facts]
-- ==== Proof.KernelRun.lean ====
/-
  The idealized kernel's run, with its result named.

  The program is seven kernel regions among stretches of host operations. Its buffers' contents at every boundary
  between two segments are a fold from the launch memory: a stretch of host operations leaves each buffer it writes at
  the operation's value of its operands, a region leaves each of its output arrays at what its grid points wrote back
  and every other buffer as it found it. Every weakly fair execution terminates with every unscoped buffer at the last
  boundary's contents; read at the result buffer this names the result, and read at an argument it is the argument as
  launched, since no segment writes one.
-/
import proofs.«171516_j51496657879500_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument as launched. -/
theorem run_result : θ_run defs (onTc (τ := τ) (main (F := F))) ⟨m, fun _ => 0, ρ⟩ (fun r => ∀ c : Dev nD,
      r.2.mem ((c.tc : Thread nD τ).loc main_v91) = W14 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v91 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)

end Cert.KernelIdeal.RunValue

end
-- ==== Proof.Net.lean ====
/-
  The network both programs compute, as whole-array functions on the extended reals.

  A graph convolution projects the node features by a dense matrix, gathers the projected row of every edge's
  source node, scales it by the edge's normalisation d_src^(-1/2) * d_dst^(-1/2) (d the in-degree, a node of degree
  zero weighing nothing), adds the scaled rows up at the edge's target node and adds the bias row. The network is
  three convolutions with a rectification after the first two, a mean over the nodes of each graph, and a two-layer
  classifier head whose class scores are normalised by a softmax along the class axis.

  Everything here is a composition of the host's array operations over explicit operands: the row gather, the
  scatter with addition and the two reductions are kept as the operations they are, so that two programs which
  apply them to equal operands have equal results without either being opened.
-/
import proofs.«171516_j51496657879500_1_alg».proof.Proof.Gen.ReferenceIdeal
import Idealize.ShloMosaic.PureOps.Ideal

noncomputable section

namespace Cert.Net

open Cert.ReferenceIdeal Cert.ReferenceIdeal.Gen Idealize.ShloMosaic

/-- The source node of every edge: row 0 of the edge list. -/
def src (e : IVec S2x800000 32) : IVec S800000 32 :=
  shapeCast _ (extractStridedSlice S1x800000 ![0, 0] e slices_S2x800000_S1x800000_0_0) shapeCasts_S1x800000_S800000

/-- The target node of every edge: row 1 of the edge list. -/
def dst (e : IVec S2x800000 32) : IVec S800000 32 :=
  shapeCast _ (extractStridedSlice S1x800000 ![1, 0] e slices_S2x800000_S1x800000_1_0) shapeCasts_S1x800000_S800000

/-- A node index as a row index: a negative one counts from the end, and the result is a column of start indices. -/
def rowIndex (n : IVec S800000 32) : IVec S800000x1 32 :=
  broadcastInDim S800000x1 ![0] bcast_S800000_S800000x1_0
    (select (cmpi .slt n (broadcastInDim S800000 ![] bcast_S_S800000 (constantI S_ 32 0#32)))
      (addi n (broadcastInDim S800000 ![] bcast_S_S800000 (constantI S_ 32 50000#32))) n)

/-- The in-degree of every node: a one added at the target of every edge. -/
def degree (e : IVec S2x800000 32) : FVec Ideal S50000 .f32 :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 (dst e))
    (broadcastInDim S800000 ![] bcast_S_S800000 (constant (F := Ideal) S_ .f32 0x3F800000#32))

/-- d^(-1/2) at a node of positive degree, zero at a node of degree zero. -/
def invSqrtDegree (e : IVec S2x800000 32) : FVec Ideal S50000 .f32 :=
  select (cmpf .ogt (degree e) (broadcastInDim S50000 ![] bcast_S_S50000 (constant (F := Ideal) S_ .f32 0x00000000#32)))
    (Host.rsqrt (F := Ideal) (maximumf (degree e) (broadcastInDim S50000 ![] bcast_S_S50000 (constant (F := Ideal) S_ .f32 0x3F800000#32))))
    (broadcastInDim S50000 ![] bcast_S_S50000 (id (constant (F := Ideal) S_ .f32 0x00000000#32)))

/-- The normalisation of every edge: the product of d^(-1/2) at its two ends. -/
def edgeNorm (e : IVec S2x800000 32) : FVec Ideal S800000 .f32 :=
  mulf (Host.gather gather_S50000_S800000x1_S800000_n_0_n_n_0_1_1 (invSqrtDegree e) (rowIndex (src e)))
    (Host.gather gather_S50000_S800000x1_S800000_n_0_n_n_0_1_1 (invSqrtDegree e) (rowIndex (dst e)))

/-- The dense projection of the node features. -/
def project (x : FVec Ideal S50000x128 .f32) (w : FVec Ideal S128x128 .f32) : FVec Ideal S50000x128 .f32 :=
  Host.dotGeneral (F := Ideal) dot_S50000x128_S128x128_S50000x128_1_0_0_1_n_n none x w

/-- The neighbourhood sum: every edge's scaled source row added at its target node, given the source start
    indices, the target nodes and the edges' normalisation. -/
def aggregate (h : FVec Ideal S50000x128 .f32) (s : IVec S800000x1 32) (d : IVec S800000 32) (nrm : FVec Ideal S800000 .f32) :
    FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (mulf (Host.gather gather_S50000x128_S800000x1_S800000x128_1_0_n_n_0_1_1128 h s)
      (broadcastInDim S800000x128 ![0, 1] bcast_S800000x1_S800000x128_0_1
        (broadcastInDim S800000x1 ![0] bcast_S800000_S800000x1_0 nrm)))

/-- A feature vector as a one-row matrix. -/
def row128 (b : FVec Ideal S128 .f32) : FVec Ideal S1x128 .f32 := broadcastInDim S1x128 ![1] bcast_S128_S1x128_1 b
def row64 (b : FVec Ideal S64 .f32) : FVec Ideal S1x64 .f32 := broadcastInDim S1x64 ![1] bcast_S64_S1x64_1 b
def row2 (b : FVec Ideal S2 .f32) : FVec Ideal S1x2 .f32 := broadcastInDim S1x2 ![1] bcast_S2_S1x2_1 b

/-- The bias row added to every node's row. -/
def addRow (x : FVec Ideal S50000x128 .f32) (b : FVec Ideal S1x128 .f32) : FVec Ideal S50000x128 .f32 :=
  addf x (broadcastInDim S50000x128 ![0, 1] bcast_S1x128_S50000x128_0_1 b)

/-- The rectification max(x, 0). -/
def rectify (x : FVec Ideal S50000x128 .f32) : FVec Ideal S50000x128 .f32 :=
  maximumf x (broadcastInDim S50000x128 ![] bcast_S_S50000x128 (constant (F := Ideal) S_ .f32 0x00000000#32))

/-- The mean over the nodes of each graph: the rows summed per graph, divided by max(count, 1). -/
def meanPool (h : FVec Ideal S50000x128 .f32) (g : IVec S50000 32) : FVec Ideal S256x128 .f32 :=
  Host.divf (F := Ideal)
    (Host.scatterAdd (F := Ideal) scatter_S256x128_S50000x1_S50000x128_1_0_0_1
      (broadcastInDim S256x128 ![] bcast_S_S256x128 (constant (F := Ideal) S_ .f32 0x00000000#32))
      (broadcastInDim S50000x1 ![0] bcast_S50000_S50000x1_0 g) h)
    (broadcastInDim S256x128 ![0, 1] bcast_S256x1_S256x128_0_1 (broadcastInDim S256x1 ![0] bcast_S256_S256x1_0
      (maximumf
        (Host.scatterAdd (F := Ideal) scatter_S256_S50000x1_S50000_n_0_0_1
          (broadcastInDim S256 ![] bcast_S_S256 (constant (F := Ideal) S_ .f32 0x00000000#32))
          (broadcastInDim S50000x1 ![0] bcast_S50000_S50000x1_0 g)
          (broadcastInDim S50000 ![] bcast_S_S50000 (constant (F := Ideal) S_ .f32 0x3F800000#32)))
        (broadcastInDim S256 ![] bcast_S_S256 (constant (F := Ideal) S_ .f32 0x3F800000#32)))))

/-- The class scores: a hidden layer with rectification, then the output layer. -/
def logits (g : FVec Ideal S256x128 .f32) (w1 : FVec Ideal S128x64 .f32) (b1 : FVec Ideal S1x64 .f32)
    (w2 : FVec Ideal S64x2 .f32) (b2 : FVec Ideal S1x2 .f32) : FVec Ideal S256x2 .f32 :=
  addf (Host.dotGeneral (F := Ideal) dot_S256x64_S64x2_S256x2_1_0_0_1_n_n none
      (maximumf (addf (Host.dotGeneral (F := Ideal) dot_S256x128_S128x64_S256x64_1_0_0_1_n_n none g w1)
          (broadcastInDim S256x64 ![0, 1] bcast_S1x64_S256x64_0_1 b1))
        (broadcastInDim S256x64 ![] bcast_S_S256x64 (constant (F := Ideal) S_ .f32 0x00000000#32))) w2)
    (broadcastInDim S256x2 ![0, 1] bcast_S1x2_S256x2_0_1 b2)

/-- exp(z - max_row z): the softmax's numerator. -/
def shiftedExp (z : FVec Ideal S256x2 .f32) : FVec Ideal S256x2 .f32 :=
  Host.exp (F := Ideal) (subf z (broadcastInDim S256x2 ![0, 1] bcast_S256x1_S256x2_0_1 (broadcastInDim S256x1 ![0] bcast_S256_S256x1_0
    (maximumf (broadcastInDim S256 ![] bcast_S_S256 (constant (F := Ideal) S_ .f32 0xFF800000#32))
      (Host.reduce FloatOps.maximumf z (constant (F := Ideal) S_ .f32 0xFF800000#32) reducesTo_S256x2_S256_d1 h_S_)))))

/-- The softmax along the class axis. -/
def softmax (z : FVec Ideal S256x2 .f32) : FVec Ideal S256x2 .f32 :=
  Host.divf (F := Ideal) (shiftedExp z)
    (broadcastInDim S256x2 ![0, 1] bcast_S256x1_S256x2_0_1 (broadcastInDim S256x1 ![0] bcast_S256_S256x1_0
      (Host.reduceAdd (F := Ideal) (shiftedExp z) (constant (F := Ideal) S_ .f32 0x00000000#32) reducesTo_S256x2_S256_d1 h_S_)))

/-- The classifier head. -/
def head (g : FVec Ideal S256x128 .f32) (w1 : FVec Ideal S128x64 .f32) (b1 : FVec Ideal S1x64 .f32)
    (w2 : FVec Ideal S64x2 .f32) (b2 : FVec Ideal S1x2 .f32) : FVec Ideal S256x2 .f32 :=
  softmax (logits g w1 b1 w2 b2)

/-- One graph convolution. -/
def conv (x : FVec Ideal S50000x128 .f32) (w : FVec Ideal S128x128 .f32) (b : FVec Ideal S1x128 .f32) (e : IVec S2x800000 32) :
    FVec Ideal S50000x128 .f32 :=
  addRow (aggregate (project x w) (rowIndex (src e)) (dst e) (edgeNorm e)) b

/-- The whole network. -/
def net (x : FVec Ideal S50000x128 .f32) (e : IVec S2x800000 32) (g : IVec S50000 32) (w1 : FVec Ideal S128x128 .f32)
    (b1 : FVec Ideal S128 .f32) (w2 : FVec Ideal S128x128 .f32) (b2 : FVec Ideal S128 .f32) (wf : FVec Ideal S128x64 .f32)
    (bf : FVec Ideal S64 .f32) (wl : FVec Ideal S64x2 .f32) (bl : FVec Ideal S2 .f32) : FVec Ideal S256x2 .f32 :=
  head (meanPool (conv (rectify (conv (rectify (conv x w1 (row128 b1) e)) w2 (row128 b2) e)) w2 (row128 b2) e) g)
    wf (row64 bf) wl (row2 bl)

end Cert.Net

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.LibHostDotPlain.lean ====
/-
  The host's plain matrix product, read at an entry, over the extended reals.

  For the dimension numbers `DotDims.plain M K N` (an `M × K` left operand, a `K × N` right operand, the left one's
  columns contracted with the right one's rows, no batch axis) entry `(p, q)` of the host's product is
  `Σ_{k < K} l (p, k) * r (k, q)`, whatever the precision and the schedule: over the extended reals a product is
  the exact sum of the exact products, and the contraction index has one coordinate, which runs over `Fin K`.
-/
import proofs.«171516_j51496657879500_1_alg».proof.Proof.LibMatmulPlain

noncomputable section

open scoped BigOperators

namespace Cert.Lib

open Idealize.ShloMosaic Idealize.ShloMosaic.ValueIdx

/-- ENTRY `(p, q)` OF THE HOST'S PLAIN PRODUCT: the sum over `k : Fin K` of `l (p, k) * r (k, q)`. -/
theorem dotGeneral_plain_apply {φ₁ φ₂ : FTy} (M K N : Nat) (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Cert.Lib

end
-- ==== Proof.LibColumn.lean ====
/-
  A column kept from a vector, and a column spread along rows, read at an entry.

  Summing a matrix along its rows while keeping the axis (`keepdims`) leaves an `[a]` vector viewed as an `[a, 1]`
  column; dividing the matrix by it spreads the column back to `[a, b]`. Read at an entry:
  * the `[a]` vector cast to `[a, 1]` has, at `(i, u)`, the vector's entry `i`, whatever the unit coordinate `u`;
  * the `[a, 1]` column broadcast to `[a, b]` has, at `(p, c)`, the column's entry `(p, 0)`.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibHostForms.lean ====
/-
  Kernel-side forms of the host's array operations, over the extended reals.

  A kernel body and the host spell the same operation differently. Read as whole-array functions they agree:
  * a matrix product of two operands (either one first changed to a narrower float format, which is the identity
    here) into the zero accumulator is the host's product of the operands, for the plain dimension numbers
    (an M × K left operand, a K × N right operand, the left one's columns against the right one's rows);
  * a one-row matrix spread along the rows is the host's broadcast of it along both axes;
  * a vector kept as a column and spread along the columns is the host's two broadcasts of the vector;
  * a scalar splat is the host's broadcast of the rank-zero constant of the same bits;
  * a vector viewed as a one-row matrix by a change of shape is the host's broadcast of it into the second axis.
  None mentions a program: the shapes are literal in their extents only.
-/
import proofs.«171516_j51496657879500_1_alg».proof.Proof.LibMatmulPlain
import proofs.«171516_j51496657879500_1_alg».proof.Proof.LibHostDotPlain
import proofs.«171516_j51496657879500_1_alg».proof.Proof.LibColumn
import Idealize.ShloMosaic.Lib.ValueLayout
import Idealize.ShloMosaic.Lib.Pipeline.Value
import Idealize.ShloMosaic.PureOps.Ideal.Laws

noncomputable section

open scoped BigOperators

namespace Cert.Lib

open Idealize.ShloMosaic Idealize.ShloMosaic.ValueIdx

/-- A matrix product into the zero accumulator is the host's product of the same operands. -/
theorem matmul_zero_eq_hostDot (M K N : Nat) (Dk Dr : DotDims ⟨2, ![M, K]⟩ ⟨2, ![K, N]⟩ ⟨2, ![M, N]⟩)
    (hk : Dk = DotDims.plain M K N) (hr : Dr = DotDims.plain M K N)
    (l : FVec Ideal ⟨2, ![M, K]⟩ .f32) (r : FVec Ideal ⟨2, ![K, N]⟩ .f32) :
    matmul Dk none (truncf .bf16 l (by decide)) (truncf .bf16 r (by decide)) (constant (F := Ideal) ⟨2, ![M, N]⟩ .f32 0x00000000#32)
      = Host.dotGeneral (F := Ideal) Dr none l r := by
  subst hk hr
  funext j
  obtain ⟨p, q, rfl⟩ : ∃ (p : Fin M) (q : Fin N), j = ix2 p q := ⟨j 0, j 1, eq_ix2 j⟩
  exact (Cert.Lib.matmul_plain_zero_apply M K N none l r p q).trans (Cert.Lib.dotGeneral_plain_apply M K N none _ l r p q).symm

/-- A one-row matrix spread along the rows is the host's broadcast of it. -/
theorem rowSpread_eq {α : Type} (a b : Nat) (v : (⟨2, ![1, b]⟩ : Shape).Idx → α) (h : (⟨2, ![1, b]⟩ : Shape).Broadcasts ⟨2, ![a, b]⟩)
    (h' : (⟨2, ![1, b]⟩ : Shape).BroadcastsInDim ⟨2, ![a, b]⟩ ![0, 1]) (hb : b ≠ 1) :
    broadcastTo ⟨2, ![a, b]⟩ v h = broadcastInDim ⟨2, ![a, b]⟩ ![0, 1] h' v := by
  funext j
  obtain ⟨p, q, rfl⟩ : ∃ (p : Fin a) (q : Fin b), j = ix2 p q := ⟨j 0, j 1, eq_ix2 j⟩
  rw [broadcastTo_1b_ab_apply]
  refine (broadcastInDim_apply _ h' v (ix2 p q) (ix2 (0 : Fin 1) q) fun ax => ?_).symm
  match ax with
  | ⟨0, _⟩ => show (0 : Nat) = if (1 : Nat) = 1 then 0 else p.val; rw [if_pos rfl]
  | ⟨1, _⟩ => show q.val = if b = 1 then 0 else q.val; rw [if_neg hb]

/-- A vector kept as a column and spread along the columns is the host's two broadcasts of it. -/
theorem colSpread_eq {α : Type} (a b : Nat) (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (h3 : (⟨1, ![a]⟩ : Shape).BroadcastsInDim ⟨2, ![a, 1]⟩ ![0])
    (h4 : (⟨2, ![a, 1]⟩ : Shape).BroadcastsInDim ⟨2, ![a, b]⟩ ![0, 1]) (ha : a ≠ 1) :
    broadcastTo ⟨2, ![a, b]⟩ (shapeCast ⟨2, ![a, 1]⟩ v h1) h2
      = broadcastInDim ⟨2, ![a, b]⟩ ![0, 1] h4 (broadcastInDim ⟨2, ![a, 1]⟩ ![0] h3 v) := by
  funext j
  obtain ⟨p, q, rfl⟩ : ∃ (p : Fin a) (q : Fin b), j = ix2 p q := ⟨j 0, j 1, eq_ix2 j⟩
  rw [Cert.Lib.broadcastTo_a1_ab_apply, Cert.Lib.shapeCast_a_a1_apply]
  refine ((broadcastInDim_apply _ h4 _ (ix2 p q) (ix2 p (0 : Fin 1)) fun ax => ?_).trans
    (broadcastInDim_apply _ h3 v (ix2 p (0 : Fin 1)) (ix1 p) fun ax => ?_)).symm
  · match ax with
    | ⟨0, _⟩ => show p.val = if a = 1 then 0 else p.val; rw [if_neg ha]
    | ⟨1, _⟩ => show (0 : Nat) = if (1 : Nat) = 1 then 0 else q.val; rw [if_pos rfl]
  · match ax with
    | ⟨0, _⟩ => show p.val = if a = 1 then 0 else p.val; rw [if_neg ha]

/-- A scalar splat is the host's broadcast of the rank-zero constant. -/
theorem splat_eq (s : Shape) (b : BitVec 32) (h : (⟨0, ![]⟩ : Shape).BroadcastsInDim s ![]) :
    (broadcast s (Scalar.ofBits (F := Ideal) .f32 b) : FVec Ideal s .f32)
      = broadcastInDim s ![] h (constant (F := Ideal) ⟨0, ![]⟩ .f32 b) := by
  funext j
  exact (broadcastInDim_apply ![] h (constant (F := Ideal) ⟨0, ![]⟩ .f32 b) j ix0 fun ax => ax.elim0).symm

/-- A feature vector viewed as a one-row matrix by a change of shape is the host's one-row broadcast of it. -/
theorem row_eq {α : Type} (n : Nat) (b : (⟨1, ![n]⟩ : Shape).Idx → α) (h : (⟨1, ![n]⟩ : Shape).ShapeCasts ⟨2, ![1, n]⟩)
    (h' : (⟨1, ![n]⟩ : Shape).BroadcastsInDim ⟨2, ![1, n]⟩ ![1]) (hn : n ≠ 1) :
    shapeCast ⟨2, ![1, n]⟩ b h = broadcastInDim ⟨2, ![1, n]⟩ ![1] h' b := by
  funext j
  obtain ⟨u, q, rfl⟩ : ∃ (u : Fin 1) (q : Fin n), j = ix2 u q := ⟨j 0, j 1, eq_ix2 j⟩
  rw [shapeCast_a_1a_apply]
  refine (broadcastInDim_apply _ h' b (ix2 u q) (ix1 q) fun ax => ?_).symm
  match ax with
  | ⟨0, _⟩ => show q.val = if n = 1 then 0 else q.val; rw [if_neg hn]

end Cert.Lib

end
-- ==== Proof.Payloads.lean ====
/-
  What each kernel body computes, on the extended reals.

  The projection kernels' body is one matrix product of the row block with the whole weight matrix into a zero
  accumulator: entry (p, q) is the sum over k of x (p, k) * w (k, q) (a change of float format is the identity).
  The bias kernels' body adds the one bias row to every row of the block, and rectifies where the kernel does.
  The classifier kernel's body is the two-layer head followed by a softmax along the class axis; piece by piece it is
  the host's form of the same computation: a matrix product into zero is the host's product, a row spread along the
  rows and a column spread along the columns are the host's broadcasts, a lane maximum and a lane sum are the host's
  reductions along that axis.
-/
import proofs.«171516_j51496657879500_1_alg».proof.Proof.Gen.KernelIdeal.Skeleton
import proofs.«171516_j51496657879500_1_alg».proof.Proof.Net
import proofs.«171516_j51496657879500_1_alg».proof.Proof.LibMatmulPlain
import proofs.«171516_j51496657879500_1_alg».proof.Proof.LibHostDotPlain
import proofs.«171516_j51496657879500_1_alg».proof.Proof.LibColumn
import proofs.«171516_j51496657879500_1_alg».proof.Proof.LibHostForms
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Cert.Lib Idealize.ShloMosaic Idealize.ShloMosaic.ValueIdx

/-! ## The two lane reductions -/

/-- The kernel's lane maximum, joined with the accumulator's value, is the host's maximum along that axis joined
    with the same value: both fold max from minus infinity over the axis's coordinates. -/
theorem laneMax_eq (z : FVec Ideal ⟨2, ![256, 2]⟩ .f32) (hr : (⟨2, ![256, 2]⟩ : Shape).Reduces [1] ⟨1, ![256]⟩)
    (hr' : (⟨2, ![256, 2]⟩ : Shape).ReducesTo [1] ⟨1, ![256]⟩) (hφ : FKind.Formats .f32)
    (hacc : (0xFF800000#32 : BitVec 32) = FKind.maximumf.neutral .f32 hφ) (hu : 0 < (⟨0, ![]⟩ : Shape).numel)
    (hb : (⟨0, ![]⟩ : Shape).BroadcastsInDim ⟨1, ![256]⟩ ![]) :
    maximumf (broadcast ⟨1, ![256]⟩ (Scalar.ofBits (F := Ideal) .f32 0xFF800000#32))
        (multiReduction .maximumf [1] ⟨1, ![256]⟩ z 0xFF800000#32 hr hφ hacc)
      = maximumf (broadcastInDim ⟨1, ![256]⟩ ![] hb (constant (F := Ideal) ⟨0, ![]⟩ .f32 0xFF800000#32))
        (Host.reduce FloatOps.maximumf z (constant (F := Ideal) ⟨0, ![]⟩ .f32 0xFF800000#32) hr' hu) := by
  rw [splat_eq ⟨1, ![256]⟩ 0xFF800000#32 hb]
  refine congrArg (maximumf _) (funext fun j => ?_)
  rw [Ideal.multiReduction_maximumf_single z _ hr hφ hacc j, Host.reduce_eq_fold_single FloatOps.maximumf z _ hr' hr hu j]
  rfl

/-- The kernel's lane sum is the host's sum along that axis from zero. -/
theorem laneSum_eq (z : FVec Ideal ⟨2, ![256, 2]⟩ .f32) (hr : (⟨2, ![256, 2]⟩ : Shape).Reduces [1] ⟨1, ![256]⟩)
    (hr' : (⟨2, ![256, 2]⟩ : Shape).ReducesTo [1] ⟨1, ![256]⟩) (hφ : FKind.Formats .f32)
    (hacc : (0x00000000#32 : BitVec 32) = FKind.add.neutral .f32 hφ) (hu : 0 < (⟨0, ![]⟩ : Shape).numel) :
    multiReduction .add [1] ⟨1, ![256]⟩ z 0x00000000#32 hr hφ hacc
      = Host.reduceAdd (F := Ideal) z (constant (F := Ideal) ⟨0, ![]⟩ .f32 0x00000000#32) hr' hu := by
  funext j
  rw [Ideal.multiReduction_add_single z _ hr hφ hacc j]
  show _ = Ideal.hostReduceAdd hr' z (Ideal.ofBits .f32 0x00000000#32) j
  rw [Ideal.hostReduceAdd_single hr' hr, Ideal.ofBits_zero_f32, zero_add]

/-! ## The projection kernels -/

/-- Entry (p, q) of a projection block: the row of the block against the column of the weights. -/
theorem project_block0 (x : FVec Ideal S5000x128 .f32) (w : FVec Ideal S128x128 .f32) (p : Fin 5000) (q : Fin 128) :
    k0_pay1 (F := Ideal) x w (ix2 p q) = ∑ k : Fin 128, x (ix2 p k) * w (ix2 k q) :=
  Cert.Lib.matmul_plain_zero_apply 5000 128 128 none x w p q

theorem project_block2 (x : FVec Ideal S5000x128 .f32) (w : FVec Ideal S128x128 .f32) (p : Fin 5000) (q : Fin 128) :
    k2_pay1 (F := Ideal) x w (ix2 p q) = ∑ k : Fin 128, x (ix2 p k) * w (ix2 k q) := by
  unfold k2_pay1; rw [shapeCast_self]
  exact Cert.Lib.matmul_plain_zero_apply 5000 128 128 none x w p q

theorem project_block4 (x : FVec Ideal S5000x128 .f32) (w : FVec Ideal S128x128 .f32) (p : Fin 5000) (q : Fin 128) :
    k4_pay1 (F := Ideal) x w (ix2 p q) = ∑ k : Fin 128, x (ix2 p k) * w (ix2 k q) := by
  unfold k4_pay1; rw [shapeCast_self]
  exact Cert.Lib.matmul_plain_zero_apply 5000 128 128 none x w p q

/-- Entry (P, q) of the whole projection: the node's row against the column of the weights. -/
theorem project_entry (X : FVec Ideal ⟨2, ![50000, 128]⟩ .f32) (W : FVec Ideal ⟨2, ![128, 128]⟩ .f32) (P : Fin 50000) (q : Fin 128) :
    Cert.Net.project X W (ix2 P q) = ∑ k : Fin 128, X (ix2 P k) * W (ix2 k q) :=
  Cert.Lib.dotGeneral_plain_apply 50000 128 128 none _ X W P q

/-! ## The bias kernels -/

/-- Entry (p, q) of a rectified bias block. -/
theorem biasRelu_block1 (x : FVec Ideal S5000x128 .f32) (b : FVec Ideal S1x128 .f32) (p : Fin 5000) (q : Fin 128) :
    k1_pay1 (F := Ideal) x b (ix2 p q) = max (x (ix2 p q) + b (ix2 (0 : Fin 1) q)) (Ideal.ofBits .f32 0x00000000#32) := by
  unfold k1_pay1; rw [shapeCast_self, shapeCast_self]
  show max (x (ix2 p q) + broadcastTo S5000x128 b broadcasts_S1x128_S5000x128 (ix2 p q)) _ = _
  rw [broadcastTo_1b_ab_apply]; rfl

theorem biasRelu_block3 (x : FVec Ideal S5000x128 .f32) (b : FVec Ideal S1x128 .f32) (p : Fin 5000) (q : Fin 128) :
    k3_pay1 (F := Ideal) x b (ix2 p q) = max (x (ix2 p q) + b (ix2 (0 : Fin 1) q)) (Ideal.ofBits .f32 0x00000000#32) := by
  unfold k3_pay1; rw [shapeCast_self, shapeCast_self]
  show max (x (ix2 p q) + broadcastTo S5000x128 b broadcasts_S1x128_S5000x128 (ix2 p q)) _ = _
  rw [broadcastTo_1b_ab_apply]; rfl

/-- Entry (p, q) of a bias block. -/
theorem bias_block5 (x : FVec Ideal S5000x128 .f32) (b : FVec Ideal S1x128 .f32) (p : Fin 5000) (q : Fin 128) :
    k5_pay1 (F := Ideal) x b (ix2 p q) = x (ix2 p q) + b (ix2 (0 : Fin 1) q) := by
  unfold k5_pay1; rw [shapeCast_self, shapeCast_self]
  show x (ix2 p q) + broadcastTo S5000x128 b broadcasts_S1x128_S5000x128 (ix2 p q) = _
  rw [broadcastTo_1b_ab_apply]

/-- Entry (P, q) of the bias row added to every node's row. -/
theorem addRow_entry (X : FVec Ideal ⟨2, ![50000, 128]⟩ .f32) (B : FVec Ideal ⟨2, ![1, 128]⟩ .f32) (P : Fin 50000) (q : Fin 128) :
    Cert.Net.addRow X B (ix2 P q) = X (ix2 P q) + B (ix2 (0 : Fin 1) q) := by
  show X (ix2 P q) + broadcastInDim _ ![0, 1] Cert.ReferenceIdeal.Gen.bcast_S1x128_S50000x128_0_1 B (ix2 P q) = _
  rw [broadcastInDim_apply _ Cert.ReferenceIdeal.Gen.bcast_S1x128_S50000x128_0_1 B (ix2 P q) (ix2 (0 : Fin 1) q) fun ax => by
    match ax with
    | ⟨0, _⟩ => show (0 : Nat) = if (1 : Nat) = 1 then 0 else P.val; rw [if_pos rfl]
    | ⟨1, _⟩ => show q.val = if (128 : Nat) = 1 then 0 else q.val; rw [if_neg (by decide)]]

/-- Entry (P, q) of the rectification. -/
theorem rectify_entry (X : FVec Ideal ⟨2, ![50000, 128]⟩ .f32) (P : Fin 50000) (q : Fin 128) :
    Cert.Net.rectify X (ix2 P q) = max (X (ix2 P q)) (Ideal.ofBits .f32 0x00000000#32) := by
  show max (X (ix2 P q)) (broadcastInDim _ ![] Cert.ReferenceIdeal.Gen.bcast_S_S50000x128 (constant (F := Ideal) ⟨0, ![]⟩ .f32 0x00000000#32) (ix2 P q)) = _
  rw [broadcastInDim_apply ![] Cert.ReferenceIdeal.Gen.bcast_S_S50000x128 (constant (F := Ideal) ⟨0, ![]⟩ .f32 0x00000000#32) (ix2 P q) ix0 fun ax => ax.elim0]
  rfl

/-! ## The classifier kernel, piece by piece -/

/-- The hidden layer as the kernel computes it. -/
def kHidden (g : FVec Ideal S256x128 .f32) (w1 : FVec Ideal S128x64 .f32) (b1 : FVec Ideal S1x64 .f32) : FVec Ideal S256x64 .f32 :=
  maximumf (addf (matmul dot_S256x128_S128x64_S256x64_1_0_0_1_n_n none
        (truncf .bf16 (shapeCast S256x128 g shapeCasts_S256x128_S256x128) bitsLt_bf16_f32) (truncf .bf16 w1 bitsLt_bf16_f32)
        (constant (F := Ideal) S256x64 .f32 0x00000000#32))
      (broadcastTo S256x64 (shapeCast S1x64 b1 shapeCasts_S1x64_S1x64) broadcasts_S1x64_S256x64))
    (broadcast S256x64 (Scalar.ofBits (F := Ideal) .f32 0x00000000#32))

/-- The class scores as the kernel computes them. -/
def kLogits (g : FVec Ideal S256x128 .f32) (w1 : FVec Ideal S128x64 .f32) (b1 : FVec Ideal S1x64 .f32)
    (w2 : FVec Ideal S64x2 .f32) (b2 : FVec Ideal S1x2 .f32) : FVec Ideal S256x2 .f32 :=
  addf (matmul dot_S256x64_S64x2_S256x2_1_0_0_1_n_n none (truncf .bf16 (kHidden g w1 b1) bitsLt_bf16_f32) (truncf .bf16 w2 bitsLt_bf16_f32)
      (constant (F := Ideal) S256x2 .f32 0x00000000#32))
    (broadcastTo S256x2 (shapeCast S1x2 b2 shapeCasts_S1x2_S1x2) broadcasts_S1x2_S256x2)

/-- Each row's largest class score, joined with minus infinity, as the kernel computes it. -/
def kTop (z : FVec Ideal S256x2 .f32) : FVec Ideal S256 .f32 :=
  maximumf (broadcast S256 (Scalar.ofBits (F := Ideal) .f32 0xFF800000#32))
    (multiReduction .maximumf [1] S256 z 0xFF800000#32 reduces_S256x2_S256 (.inl rfl) rfl)

/-- exp(z - max_row z) as the kernel computes it. -/
def kShiftedExp (z : FVec Ideal S256x2 .f32) : FVec Ideal S256x2 .f32 :=
  exp (subf z (broadcastTo S256x2 (shapeCast S256x1 (kTop z) shapeCasts_S256_S256x1) broadcasts_S256x1_S256x2))

/-- Each row's sum as the kernel computes it. -/
def kRowSum (e : FVec Ideal S256x2 .f32) : FVec Ideal S256 .f32 :=
  multiReduction .add [1] S256 e 0x00000000#32 reduces_S256x2_S256 (.inl rfl) rfl

/-- The softmax as the kernel computes it. -/
def kSoftmax (z : FVec Ideal S256x2 .f32) : FVec Ideal S256x2 .f32 :=
  divf (kShiftedExp z) (broadcastTo S256x2 (shapeCast S256x1 (kRowSum (kShiftedExp z)) shapeCasts_S256_S256x1) broadcasts_S256x1_S256x2)

/-- The classifier body is the softmax of the class scores: its definition, the intermediate values named. -/
theorem k6_pay1_eq (g : FVec Ideal S256x128 .f32) (w1 : FVec Ideal S128x64 .f32) (b1 : FVec Ideal S1x64 .f32)
    (w2 : FVec Ideal S64x2 .f32) (b2 : FVec Ideal S1x2 .f32) :
    k6_pay1 (F := Ideal) g w1 b1 w2 b2 = kSoftmax (kLogits g w1 b1 w2 b2) := rfl

theorem kHidden_eq (g : FVec Ideal S256x128 .f32) (w1 : FVec Ideal S128x64 .f32) (b1 : FVec Ideal S1x64 .f32) :
    kHidden g w1 b1 = maximumf (addf (Host.dotGeneral (F := Ideal) Cert.ReferenceIdeal.dot_S256x128_S128x64_S256x64_1_0_0_1_n_n none g w1)
        (broadcastInDim Cert.ReferenceIdeal.S256x64 ![0, 1] Cert.ReferenceIdeal.Gen.bcast_S1x64_S256x64_0_1 b1))
      (broadcastInDim Cert.ReferenceIdeal.S256x64 ![] Cert.ReferenceIdeal.Gen.bcast_S_S256x64 (constant (F := Ideal) Cert.ReferenceIdeal.S_ .f32 0x00000000#32)) := by
  unfold kHidden
  rw [shapeCast_self, shapeCast_self,
    matmul_zero_eq_hostDot 256 128 64 dot_S256x128_S128x64_S256x64_1_0_0_1_n_n Cert.ReferenceIdeal.dot_S256x128_S128x64_S256x64_1_0_0_1_n_n rfl rfl g w1,
    rowSpread_eq 256 64 b1 broadcasts_S1x64_S256x64 Cert.ReferenceIdeal.Gen.bcast_S1x64_S256x64_0_1 (by decide),
    splat_eq S256x64 0x00000000#32 Cert.ReferenceIdeal.Gen.bcast_S_S256x64]

theorem kLogits_eq (g : FVec Ideal S256x128 .f32) (w1 : FVec Ideal S128x64 .f32) (b1 : FVec Ideal S1x64 .f32)
    (w2 : FVec Ideal S64x2 .f32) (b2 : FVec Ideal S1x2 .f32) : kLogits g w1 b1 w2 b2 = Cert.Net.logits g w1 b1 w2 b2 := by
  unfold kLogits Cert.Net.logits
  rw [shapeCast_self,
    matmul_zero_eq_hostDot 256 64 2 dot_S256x64_S64x2_S256x2_1_0_0_1_n_n Cert.ReferenceIdeal.dot_S256x64_S64x2_S256x2_1_0_0_1_n_n rfl rfl (kHidden g w1 b1) w2,
    rowSpread_eq 256 2 b2 broadcasts_S1x2_S256x2 Cert.ReferenceIdeal.Gen.bcast_S1x2_S256x2_0_1 (by decide), kHidden_eq]

theorem kTop_eq (z : FVec Ideal S256x2 .f32) :
    kTop z = maximumf (broadcastInDim Cert.ReferenceIdeal.S256 ![] Cert.ReferenceIdeal.Gen.bcast_S_S256 (constant (F := Ideal) Cert.ReferenceIdeal.S_ .f32 0xFF800000#32))
      (Host.reduce FloatOps.maximumf z (constant (F := Ideal) Cert.ReferenceIdeal.S_ .f32 0xFF800000#32) Cert.ReferenceIdeal.Gen.reducesTo_S256x2_S256_d1 Cert.ReferenceIdeal.Gen.h_S_) :=
  laneMax_eq z reduces_S256x2_S256 Cert.ReferenceIdeal.Gen.reducesTo_S256x2_S256_d1 (.inl rfl) rfl Cert.ReferenceIdeal.Gen.h_S_ Cert.ReferenceIdeal.Gen.bcast_S_S256

theorem kRowSum_eq (e : FVec Ideal S256x2 .f32) :
    kRowSum e = Host.reduceAdd (F := Ideal) e (constant (F := Ideal) Cert.ReferenceIdeal.S_ .f32 0x00000000#32) Cert.ReferenceIdeal.Gen.reducesTo_S256x2_S256_d1 Cert.ReferenceIdeal.Gen.h_S_ :=
  laneSum_eq e reduces_S256x2_S256 Cert.ReferenceIdeal.Gen.reducesTo_S256x2_S256_d1 (.inl rfl) rfl Cert.ReferenceIdeal.Gen.h_S_

theorem kShiftedExp_eq (z : FVec Ideal S256x2 .f32) : kShiftedExp z = Cert.Net.shiftedExp z := by
  unfold kShiftedExp Cert.Net.shiftedExp
  rw [colSpread_eq 256 2 (kTop z) shapeCasts_S256_S256x1 broadcasts_S256x1_S256x2 Cert.ReferenceIdeal.Gen.bcast_S256_S256x1_0 Cert.ReferenceIdeal.Gen.bcast_S256x1_S256x2_0_1 (by decide),
    kTop_eq]
  rfl

theorem kSoftmax_eq (z : FVec Ideal S256x2 .f32) : kSoftmax z = Cert.Net.softmax z := by
  unfold kSoftmax Cert.Net.softmax
  rw [colSpread_eq 256 2 (kRowSum (kShiftedExp z)) shapeCasts_S256_S256x1 broadcasts_S256x1_S256x2 Cert.ReferenceIdeal.Gen.bcast_S256_S256x1_0 Cert.ReferenceIdeal.Gen.bcast_S256x1_S256x2_0_1 (by decide),
    kRowSum_eq, kShiftedExp_eq]
  rfl

/-- THE CLASSIFIER BODY is the head of the network at its five operands. -/
theorem head_eq (g : FVec Ideal S256x128 .f32) (w1 : FVec Ideal S128x64 .f32) (b1 : FVec Ideal S1x64 .f32)
    (w2 : FVec Ideal S64x2 .f32) (b2 : FVec Ideal S1x2 .f32) :
    k6_pay1 (F := Ideal) g w1 b1 w2 b2 = Cert.Net.head g w1 b1 w2 b2 := by
  rw [k6_pay1_eq, kSoftmax_eq, kLogits_eq]; rfl

/-- The same, the five operands given up to equality: what a region whose blocks are its whole arrays uses. -/
theorem head_of_eq {g g' : FVec Ideal S256x128 .f32} {w1 w1' : FVec Ideal S128x64 .f32} {b1 b1' : FVec Ideal S1x64 .f32}
    {w2 w2' : FVec Ideal S64x2 .f32} {b2 b2' : FVec Ideal S1x2 .f32}
    (hg : g = g') (hw1 : w1 = w1') (hb1 : b1 = b1') (hw2 : w2 = w2') (hb2 : b2 = b2') :
    k6_pay1 (F := Ideal) g w1 b1 w2 b2 = Cert.Net.head g' w1' b1' w2' b2' := by
  subst hg hw1 hb1 hw2 hb2
  exact head_eq g w1 b1 w2 b2

end Cert.KernelIdeal.Payload

end
-- ==== Proof.Regions.lean ====
/-
  What each kernel region leaves in its result array, as one function of the arrays it was entered with.

  Each of the six tiled regions runs its body at ten grid points; point t stages rows 5000 t to 5000 t + 4999 of the
  first operand and the whole second operand, and writes its result back to the same rows of the result array. The
  body's entry (p, q) depends on row p of the staged block only, so what point t writes back is block t of ONE function
  of the whole arrays — the projection, or the bias row added and, in two regions, rectified — and the ten blocks
  cover the array: row r is in the block of point r / 5000. The classifier region has one point that stages its five
  operands whole and writes the whole result: the network's head of the five arrays.
-/
import proofs.«171516_j51496657879500_1_alg».proof.Proof.Gen.KernelIdeal.Frame
import proofs.«171516_j51496657879500_1_alg».proof.Proof.Payloads

set_option maxRecDepth 16384

noncomputable section

open scoped BigOperators

namespace Cert.KernelIdeal.Region

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-! ## Region 0: its result array is the projection of the rows it was entered with by the weights -/

/-- The printed index maps of region 0, decided over its ten grid points: the row block moves with the point, the
    second operand's block stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem onto0 : ∀ q0 : Fin 10, ∃ t : Fin cfg0.N, win0_2.index t = ![q0.val, 0] :=
  (by decide +kernel : ∀ q0 : Fin 10, ∃ t : Fin grid0.N, win0_2.index t = ![q0.val, 0])

/-- What point t writes back is block t — rows 5000 t to 5000 t + 4999 — of the whole-array function. -/
theorem flushed0 (c : Dev nD) (t : Fin cfg0.N) :
    (dat0 V c).flushed 2 t = ((cfg0.win 2).blk t).view.read (Elt Ideal) (Cert.Net.project (V c main_arg0) (V c main_arg3)) := by
  show (cfg0.win 2).cut (grid0.coords t) ((dat0 V c).after 2 t) = _
  rw [after0_2]
  unfold out0_2
  rw [View.canon_unit_zero zeros2]
  simp only [View.ld_unit_zero (S := S5000x128) zeros2, View.ld_unit_zero (S := S128x128) zeros2]
  obtain ⟨e0, e1, e2, e3, e4, e5⟩ := idx0 t
  have ht : t.val < 10 := Nat.lt_of_lt_of_eq t.isLt N_0
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = (Cert.Net.project (V c main_arg0) (V c main_arg3)) (((cfg0.win 2).blk t).view.emb (ix2 p q))
  have he : ((cfg0.win 2).blk t).view.emb (ix2 p q) = ix2 (⟨t.val * 5000 + p.val, by omega⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [he]
  have h0 : ∀ k : Fin 128, iblk0 V c 0 t (ix2 p k) = V c main_arg0 (ix2 (⟨t.val * 5000 + p.val, by omega⟩ : Fin 50000) k) := fun k => by
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : ∀ k : Fin 128, iblk0 V c 1 t (ix2 k q) = V c main_arg3 (ix2 k q) := fun k => by
    show V c main_arg3 (((cfg0.win 1).blk t).view.emb (ix2 k q)) = _
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  refine (Payload.project_block0 (iblk0 V c 0 t) (iblk0 V c 1 t) p q).trans ?_
  rw [Payload.project_entry]
  exact Finset.sum_congr rfl fun k _ => by rw [h0 k, h1 k]

/-- An index of the array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v29).slice (win0_2.rect t)).set ↔ _
  rw [View.set_slice_whole, Rect.mem_set_unit]
  exact Iff.rfl

/-- Row r of the array is in the block of point r / 5000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE ARRAY region 0 leaves: the projection of the rows it was entered with by the weights. -/
theorem final0 (c : Dev nD) : (dat0 V c).arrAt 2 cfg0.N = Cert.Net.project (V c main_arg0) (V c main_arg3) :=
  (dat0 V c).arrAt_eq_of_cover 2 _ (fun t _ => flushed0 V c t) cover0

/-! ## Region 1: its result array is the bias row added to every row it was entered with, rectified -/

/-- The printed index maps of region 1, decided over its ten grid points: the row block moves with the point, the
    second operand's block stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every row block is some point's. -/
theorem onto1 : ∀ q0 : Fin 10, ∃ t : Fin cfg1.N, win1_2.index t = ![q0.val, 0] :=
  (by decide +kernel : ∀ q0 : Fin 10, ∃ t : Fin grid1.N, win1_2.index t = ![q0.val, 0])

/-- What point t writes back is block t — rows 5000 t to 5000 t + 4999 — of the whole-array function. -/
theorem flushed1 (c : Dev nD) (t : Fin cfg1.N) :
    (dat1 V c).flushed 2 t = ((cfg1.win 2).blk t).view.read (Elt Ideal) (Cert.Net.rectify (Cert.Net.addRow (V c main_v42) (V c main_v43))) := by
  show (cfg1.win 2).cut (grid1.coords t) ((dat1 V c).after 2 t) = _
  rw [after1_2]
  unfold out1_2
  rw [View.canon_unit_zero zeros2]
  simp only [View.ld_unit_zero (S := S5000x128) zeros2, View.ld_unit_zero (S := S1x128) zeros2]
  obtain ⟨e0, e1, e2, e3, e4, e5⟩ := idx1 t
  have ht : t.val < 10 := Nat.lt_of_lt_of_eq t.isLt N_1
  funext j
  obtain ⟨p, q, rfl⟩ : ∃ (p : Fin 5000) (q : Fin 128), j = ix2 p q := ⟨j 0, j 1, eq_ix2 j⟩
  show k1_pay1 (iblk1 V c 0 t) (iblk1 V c 1 t) (ix2 p q)
    = (Cert.Net.rectify (Cert.Net.addRow (V c main_v42) (V c main_v43))) (((cfg1.win 2).blk t).view.emb (ix2 p q))
  have he : ((cfg1.win 2).blk t).view.emb (ix2 p q) = ix2 (⟨t.val * 5000 + p.val, by omega⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  rw [he]
  have h0 : iblk1 V c 0 t (ix2 p q) = V c main_v42 (ix2 (⟨t.val * 5000 + p.val, by omega⟩ : Fin 50000) q) := by
    show V c main_v42 (((cfg1.win 0).blk t).view.emb (ix2 p q)) = _
    refine congrArg (V c main_v42) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  have h1 : iblk1 V c 1 t (ix2 (0 : Fin 1) q) = V c main_v43 (ix2 (0 : Fin 1) q) := by
    show V c main_v43 (((cfg1.win 1).blk t).view.emb (ix2 (0 : Fin 1) q)) = _
    refine congrArg (V c main_v43) ?_
    funext a; apply Fin.ext
    match a with
    | ⟨0, _⟩ => show win1_1.index t (0 : Fin 2) * 1 + 1 * 0 = 0; omega
    | ⟨1, _⟩ => show win1_1.index t (1 : Fin 2) * 128 + 1 * q.val = q.val; omega
  refine (Payload.biasRelu_block1 (iblk1 V c 0 t) (iblk1 V c 1 t) p q).trans ?_
  rw [Payload.rectify_entry, Payload.addRow_entry, h0, h1]

/-- An index of the array is in point t's block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v44).slice (win1_2.rect t)).set ↔ _
  rw [View.set_slice_whole, Rect.mem_set_unit]
  exact Iff.rfl

/-- Row r of the array is in the block of point r / 5000. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE ARRAY region 1 leaves: the bias row added to every row it was entered with, rectified. -/
theorem final1 (c : Dev nD) : (dat1 V c).arrAt 2 cfg1.N = Cert.Net.rectify (Cert.Net.addRow (V c main_v42) (V c main_v43)) :=
  (dat1 V c).arrAt_eq_of_cover 2 _ (fun t _ => flushed1 V c t) cover1

/-! ## Region 2: its result array is the projection of the rows it was entered with by the weights -/

/-- The printed index maps of region 2, decided over its ten grid points: the row block moves with the point, the
    second operand's block stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block is some point's. -/
theorem onto2 : ∀ q0 : Fin 10, ∃ t : Fin cfg2.N, win2_2.index t = ![q0.val, 0] :=
  (by decide +kernel : ∀ q0 : Fin 10, ∃ t : Fin grid2.N, win2_2.index t = ![q0.val, 0])

/-- What point t writes back is block t — rows 5000 t to 5000 t + 4999 — of the whole-array function. -/
theorem flushed2 (c : Dev nD) (t : Fin cfg2.N) :
    (dat2 V c).flushed 2 t = ((cfg2.win 2).blk t).view.read (Elt Ideal) (Cert.Net.project (V c main_v44) (V c main_arg5)) := by
  show (cfg2.win 2).cut (grid2.coords t) ((dat2 V c).after 2 t) = _
  rw [after2_2]
  unfold out2_2
  rw [View.canon_unit_zero zeros2]
  simp only [View.ld_unit_zero (S := S5000x128) zeros2, View.ld_unit_zero (S := S128x128) zeros2]
  obtain ⟨e0, e1, e2, e3, e4, e5⟩ := idx2 t
  have ht : t.val < 10 := Nat.lt_of_lt_of_eq t.isLt N_2
  funext j
  obtain ⟨p, q, rfl⟩ : ∃ (p : Fin 5000) (q : Fin 128), j = ix2 p q := ⟨j 0, j 1, eq_ix2 j⟩
  show k2_pay1 (iblk2 V c 0 t) (iblk2 V c 1 t) (ix2 p q)
    = (Cert.Net.project (V c main_v44) (V c main_arg5)) (((cfg2.win 2).blk t).view.emb (ix2 p q))
  have he : ((cfg2.win 2).blk t).view.emb (ix2 p q) = ix2 (⟨t.val * 5000 + p.val, by omega⟩ : Fin 50000) q := by
    funext a; apply Fin.ext
    match a with
    | ⟨0, _⟩ => show win2_2.index t (0 : Fin 2) * 5000 + 1 * p.val = t.val * 5000 + p.val; omega
    | ⟨1, _⟩ => show win2_2.index t (1 : Fin 2) * 128 + 1 * q.val = q.val; omega
  rw [he]
  have h0 : ∀ k : Fin 128, iblk2 V c 0 t (ix2 p k) = V c main_v44 (ix2 (⟨t.val * 5000 + p.val, by omega⟩ : Fin 50000) k) := fun k => by
    show V c main_v44 (((cfg2.win 0).blk t).view.emb (ix2 p k)) = _
    refine congrArg (V c main_v44) ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  have h1 : ∀ k : Fin 128, iblk2 V c 1 t (ix2 k q) = V c main_arg5 (ix2 k q) := fun k => by
    show V c main_arg5 (((cfg2.win 1).blk t).view.emb (ix2 k q)) = _
    refine congrArg (V c main_arg5) ?_
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  refine (Payload.project_block2 (iblk2 V c 0 t) (iblk2 V c 1 t) p q).trans ?_
  rw [Payload.project_entry]
  exact Finset.sum_congr rfl fun k _ => by rw [h0 k, h1 k]

/-- An index of the array is in point t's block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v45).slice (win2_2.rect t)).set ↔ _
  rw [View.set_slice_whole, Rect.mem_set_unit]
  exact Iff.rfl

/-- Row r of the array is in the block of point r / 5000. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- THE ARRAY region 2 leaves: the projection of the rows it was entered with by the weights. -/
theorem final2 (c : Dev nD) : (dat2 V c).arrAt 2 cfg2.N = Cert.Net.project (V c main_v44) (V c main_arg5) :=
  (dat2 V c).arrAt_eq_of_cover 2 _ (fun t _ => flushed2 V c t) cover2

/-! ## Region 3: its result array is the bias row added to every row it was entered with, rectified -/

/-- The printed index maps of region 3, decided over its ten grid points: the row block moves with the point, the
    second operand's block stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every row block is some point's. -/
theorem onto3 : ∀ q0 : Fin 10, ∃ t : Fin cfg3.N, win3_2.index t = ![q0.val, 0] :=
  (by decide +kernel : ∀ q0 : Fin 10, ∃ t : Fin grid3.N, win3_2.index t = ![q0.val, 0])

/-- What point t writes back is block t — rows 5000 t to 5000 t + 4999 — of the whole-array function. -/
theorem flushed3 (c : Dev nD) (t : Fin cfg3.N) :
    (dat3 V c).flushed 2 t = ((cfg3.win 2).blk t).view.read (Elt Ideal) (Cert.Net.rectify (Cert.Net.addRow (V c main_v58) (V c main_v59))) := by
  show (cfg3.win 2).cut (grid3.coords t) ((dat3 V c).after 2 t) = _
  rw [after3_2]
  unfold out3_2
  rw [View.canon_unit_zero zeros2]
  simp only [View.ld_unit_zero (S := S5000x128) zeros2, View.ld_unit_zero (S := S1x128) zeros2]
  obtain ⟨e0, e1, e2, e3, e4, e5⟩ := idx3 t
  have ht : t.val < 10 := Nat.lt_of_lt_of_eq t.isLt N_3
  funext j
  obtain ⟨p, q, rfl⟩ : ∃ (p : Fin 5000) (q : Fin 128), j = ix2 p q := ⟨j 0, j 1, eq_ix2 j⟩
  show k3_pay1 (iblk3 V c 0 t) (iblk3 V c 1 t) (ix2 p q)
    = (Cert.Net.rectify (Cert.Net.addRow (V c main_v58) (V c main_v59))) (((cfg3.win 2).blk t).view.emb (ix2 p q))
  have he : ((cfg3.win 2).blk t).view.emb (ix2 p q) = ix2 (⟨t.val * 5000 + p.val, by omega⟩ : Fin 50000) q := by
    funext a; apply Fin.ext
    match a with
    | ⟨0, _⟩ => show win3_2.index t (0 : Fin 2) * 5000 + 1 * p.val = t.val * 5000 + p.val; omega
    | ⟨1, _⟩ => show win3_2.index t (1 : Fin 2) * 128 + 1 * q.val = q.val; omega
  rw [he]
  have h0 : iblk3 V c 0 t (ix2 p q) = V c main_v58 (ix2 (⟨t.val * 5000 + p.val, by omega⟩ : Fin 50000) q) := by
    show V c main_v58 (((cfg3.win 0).blk t).view.emb (ix2 p q)) = _
    refine congrArg (V c main_v58) ?_
    funext a; apply Fin.ext
    match a with
    | ⟨0, _⟩ => show win3_0.index t (0 : Fin 2) * 5000 + 1 * p.val = t.val * 5000 + p.val; omega
    | ⟨1, _⟩ => show win3_0.index t (1 : Fin 2) * 128 + 1 * q.val = q.val; omega
  have h1 : iblk3 V c 1 t (ix2 (0 : Fin 1) q) = V c main_v59 (ix2 (0 : Fin 1) q) := by
    show V c main_v59 (((cfg3.win 1).blk t).view.emb (ix2 (0 : Fin 1) q)) = _
    refine congrArg (V c main_v59) ?_
    funext a; apply Fin.ext
    match a with
    | ⟨0, _⟩ => show win3_1.index t (0 : Fin 2) * 1 + 1 * 0 = 0; omega
    | ⟨1, _⟩ => show win3_1.index t (1 : Fin 2) * 128 + 1 * q.val = q.val; omega
  refine (Payload.biasRelu_block3 (iblk3 V c 0 t) (iblk3 V c 1 t) p q).trans ?_
  rw [Payload.rectify_entry, Payload.addRow_entry, h0, h1]

/-- An index of the array is in point t's block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v60).slice (win3_2.rect t)).set ↔ _
  rw [View.set_slice_whole, Rect.mem_set_unit]
  exact Iff.rfl

/-- Row r of the array is in the block of point r / 5000. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- THE ARRAY region 3 leaves: the bias row added to every row it was entered with, rectified. -/
theorem final3 (c : Dev nD) : (dat3 V c).arrAt 2 cfg3.N = Cert.Net.rectify (Cert.Net.addRow (V c main_v58) (V c main_v59)) :=
  (dat3 V c).arrAt_eq_of_cover 2 _ (fun t _ => flushed3 V c t) cover3

/-! ## Region 4: its result array is the projection of the rows it was entered with by the weights -/

/-- The printed index maps of region 4, decided over its ten grid points: the row block moves with the point, the
    second operand's block stays. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Every row block is some point's. -/
theorem onto4 : ∀ q0 : Fin 10, ∃ t : Fin cfg4.N, win4_2.index t = ![q0.val, 0] :=
  (by decide +kernel : ∀ q0 : Fin 10, ∃ t : Fin grid4.N, win4_2.index t = ![q0.val, 0])

/-- What point t writes back is block t — rows 5000 t to 5000 t + 4999 — of the whole-array function. -/
theorem flushed4 (c : Dev nD) (t : Fin cfg4.N) :
    (dat4 V c).flushed 2 t = ((cfg4.win 2).blk t).view.read (Elt Ideal) (Cert.Net.project (V c main_v60) (V c main_arg5)) := by
  show (cfg4.win 2).cut (grid4.coords t) ((dat4 V c).after 2 t) = _
  rw [after4_2]
  unfold out4_2
  rw [View.canon_unit_zero zeros2]
  simp only [View.ld_unit_zero (S := S5000x128) zeros2, View.ld_unit_zero (S := S128x128) zeros2]
  obtain ⟨e0, e1, e2, e3, e4, e5⟩ := idx4 t
  have ht : t.val < 10 := Nat.lt_of_lt_of_eq t.isLt N_4
  funext j
  obtain ⟨p, q, rfl⟩ : ∃ (p : Fin 5000) (q : Fin 128), j = ix2 p q := ⟨j 0, j 1, eq_ix2 j⟩
  show k4_pay1 (iblk4 V c 0 t) (iblk4 V c 1 t) (ix2 p q)
    = (Cert.Net.project (V c main_v60) (V c main_arg5)) (((cfg4.win 2).blk t).view.emb (ix2 p q))
  have he : ((cfg4.win 2).blk t).view.emb (ix2 p q) = ix2 (⟨t.val * 5000 + p.val, by omega⟩ : Fin 50000) q := by
    funext a; apply Fin.ext
    match a with
    | ⟨0, _⟩ => show win4_2.index t (0 : Fin 2) * 5000 + 1 * p.val = t.val * 5000 + p.val; omega
    | ⟨1, _⟩ => show win4_2.index t (1 : Fin 2) * 128 + 1 * q.val = q.val; omega
  rw [he]
  have h0 : ∀ k : Fin 128, iblk4 V c 0 t (ix2 p k) = V c main_v60 (ix2 (⟨t.val * 5000 + p.val, by omega⟩ : Fin 50000) k) := fun k => by
    show V c main_v60 (((cfg4.win 0).blk t).view.emb (ix2 p k)) = _
    refine congrArg (V c main_v60) ?_
    funext a; apply Fin.ext
    match a with
    | ⟨0, _⟩ => show win4_0.index t (0 : Fin 2) * 5000 + 1 * p.val = t.val * 5000 + p.val; omega
    | ⟨1, _⟩ => show win4_0.index t (1 : Fin 2) * 128 + 1 * k.val = k.val; omega
  have h1 : ∀ k : Fin 128, iblk4 V c 1 t (ix2 k q) = V c main_arg5 (ix2 k q) := fun k => by
    show V c main_arg5 (((cfg4.win 1).blk t).view.emb (ix2 k q)) = _
    refine congrArg (V c main_arg5) ?_
    funext a; apply Fin.ext
    match a with
    | ⟨0, _⟩ => show win4_1.index t (0 : Fin 2) * 128 + 1 * k.val = k.val; omega
    | ⟨1, _⟩ => show win4_1.index t (1 : Fin 2) * 128 + 1 * q.val = q.val; omega
  refine (Payload.project_block4 (iblk4 V c 0 t) (iblk4 V c 1 t) p q).trans ?_
  rw [Payload.project_entry]
  exact Finset.sum_congr rfl fun k _ => by rw [h0 k, h1 k]

/-- An index of the array is in point t's block iff each coordinate is in the block's range on its axis. -/
theorem mem_blk4 (t : Fin cfg4.N) (i : S50000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v61).slice (win4_2.rect t)).set ↔ _
  rw [View.set_slice_whole, Rect.mem_set_unit]
  exact Iff.rfl

/-- Row r of the array is in the block of point r / 5000. -/
theorem cover4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- THE ARRAY region 4 leaves: the projection of the rows it was entered with by the weights. -/
theorem final4 (c : Dev nD) : (dat4 V c).arrAt 2 cfg4.N = Cert.Net.project (V c main_v60) (V c main_arg5) :=
  (dat4 V c).arrAt_eq_of_cover 2 _ (fun t _ => flushed4 V c t) cover4

/-! ## Region 5: its result array is the bias row added to every row it was entered with -/

/-- The printed index maps of region 5, decided over its ten grid points: the row block moves with the point, the
    second operand's block stays. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Every row block is some point's. -/
theorem onto5 : ∀ q0 : Fin 10, ∃ t : Fin cfg5.N, win5_2.index t = ![q0.val, 0] :=
  (by decide +kernel : ∀ q0 : Fin 10, ∃ t : Fin grid5.N, win5_2.index t = ![q0.val, 0])

/-- What point t writes back is block t — rows 5000 t to 5000 t + 4999 — of the whole-array function. -/
theorem flushed5 (c : Dev nD) (t : Fin cfg5.N) :
    (dat5 V c).flushed 2 t = ((cfg5.win 2).blk t).view.read (Elt Ideal) (Cert.Net.addRow (V c main_v74) (V c main_v75)) := by
  show (cfg5.win 2).cut (grid5.coords t) ((dat5 V c).after 2 t) = _
  rw [after5_2]
  unfold out5_2
  rw [View.canon_unit_zero zeros2]
  simp only [View.ld_unit_zero (S := S5000x128) zeros2, View.ld_unit_zero (S := S1x128) zeros2]
  obtain ⟨e0, e1, e2, e3, e4, e5⟩ := idx5 t
  have ht : t.val < 10 := Nat.lt_of_lt_of_eq t.isLt N_5
  funext j
  obtain ⟨p, q, rfl⟩ : ∃ (p : Fin 5000) (q : Fin 128), j = ix2 p q := ⟨j 0, j 1, eq_ix2 j⟩
  show k5_pay1 (iblk5 V c 0 t) (iblk5 V c 1 t) (ix2 p q)
    = (Cert.Net.addRow (V c main_v74) (V c main_v75)) (((cfg5.win 2).blk t).view.emb (ix2 p q))
  have he : ((cfg5.win 2).blk t).view.emb (ix2 p q) = ix2 (⟨t.val * 5000 + p.val, by omega⟩ : Fin 50000) q := by
    funext a; apply Fin.ext
    match a with
    | ⟨0, _⟩ => show win5_2.index t (0 : Fin 2) * 5000 + 1 * p.val = t.val * 5000 + p.val; omega
    | ⟨1, _⟩ => show win5_2.index t (1 : Fin 2) * 128 + 1 * q.val = q.val; omega
  rw [he]
  have h0 : iblk5 V c 0 t (ix2 p q) = V c main_v74 (ix2 (⟨t.val * 5000 + p.val, by omega⟩ : Fin 50000) q) := by
    show V c main_v74 (((cfg5.win 0).blk t).view.emb (ix2 p q)) = _
    refine congrArg (V c main_v74) ?_
    funext a; apply Fin.ext
    match a with
    | ⟨0, _⟩ => show win5_0.index t (0 : Fin 2) * 5000 + 1 * p.val = t.val * 5000 + p.val; omega
    | ⟨1, _⟩ => show win5_0.index t (1 : Fin 2) * 128 + 1 * q.val = q.val; omega
  have h1 : iblk5 V c 1 t (ix2 (0 : Fin 1) q) = V c main_v75 (ix2 (0 : Fin 1) q) := by
    show V c main_v75 (((cfg5.win 1).blk t).view.emb (ix2 (0 : Fin 1) q)) = _
    refine congrArg (V c main_v75) ?_
    funext a; apply Fin.ext
    match a with
    | ⟨0, _⟩ => show win5_1.index t (0 : Fin 2) * 1 + 1 * 0 = 0; omega
    | ⟨1, _⟩ => show win5_1.index t (1 : Fin 2) * 128 + 1 * q.val = q.val; omega
  refine (Payload.bias_block5 (iblk5 V c 0 t) (iblk5 V c 1 t) p q).trans ?_
  rw [Payload.addRow_entry, h0, h1]

/-- An index of the array is in point t's block iff each coordinate is in the block's range on its axis. -/
theorem mem_blk5 (t : Fin cfg5.N) (i : S50000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v76).slice (win5_2.rect t)).set ↔ _
  rw [View.set_slice_whole, Rect.mem_set_unit]
  exact Iff.rfl

/-- Row r of the array is in the block of point r / 5000. -/
theorem cover5 (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  obtain ⟨t, ht⟩ := onto5 ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- THE ARRAY region 5 leaves: the bias row added to every row it was entered with. -/
theorem final5 (c : Dev nD) : (dat5 V c).arrAt 2 cfg5.N = Cert.Net.addRow (V c main_v74) (V c main_v75) :=
  (dat5 V c).arrAt_eq_of_cover 2 _ (fun t _ => flushed5 V c t) cover5

/-! ## Region 6: its result array is the network's head of the five arrays it was entered with -/

/-- The printed index maps of region 6 at its one grid point: every block is the block at the origin. -/
theorem idx6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- What the one point writes back is the head of the five whole arrays, read through the whole-array block. -/
theorem flushed6 (c : Dev nD) (t : Fin cfg6.N) :
    (dat6 V c).flushed 5 t = ((cfg6.win 5).blk t).view.read (Elt Ideal) (Cert.Net.head (V c main_v88) (V c main_arg7) (V c main_v89) (V c main_arg9) (V c main_v90)) := by
  show (cfg6.win 5).cut (grid6.coords t) ((dat6 V c).after 5 t) = _
  rw [after6_5]
  unfold out6_5
  rw [View.canon_unit_zero zeros2]
  simp only [View.ld_unit_zero (S := S256x128) zeros2, View.ld_unit_zero (S := S128x64) zeros2, View.ld_unit_zero (S := S1x64) zeros2,
    View.ld_unit_zero (S := S64x2) zeros2, View.ld_unit_zero (S := S1x2) zeros2]
  obtain ⟨a00, a01, a10, a11, a20, a21, a30, a31, a40, a41, a50, a51⟩ := idx6 t
  have hb0 : iblk6 V c 0 t = V c main_v88 := by
    funext y
    show V c main_v88 (((cfg6.win 0).blk t).view.emb y) = V c main_v88 y
    refine congrArg (V c main_v88) ?_
    funext a; apply Fin.ext
    match a with
    | ⟨0, _⟩ => show win6_0.index t (0 : Fin 2) * 256 + 1 * (y 0).val = (y 0).val; omega
    | ⟨1, _⟩ => show win6_0.index t (1 : Fin 2) * 128 + 1 * (y 1).val = (y 1).val; omega
  have hb1 : iblk6 V c 1 t = V c main_arg7 := by
    funext y
    show V c main_arg7 (((cfg6.win 1).blk t).view.emb y) = V c main_arg7 y
    refine congrArg (V c main_arg7) ?_
    funext a; apply Fin.ext
    match a with
    | ⟨0, _⟩ => show win6_1.index t (0 : Fin 2) * 128 + 1 * (y 0).val = (y 0).val; omega
    | ⟨1, _⟩ => show win6_1.index t (1 : Fin 2) * 64 + 1 * (y 1).val = (y 1).val; omega
  have hb2 : iblk6 V c 2 t = V c main_v89 := by
    funext y
    show V c main_v89 (((cfg6.win 2).blk t).view.emb y) = V c main_v89 y
    refine congrArg (V c main_v89) ?_
    funext a; apply Fin.ext
    match a with
    | ⟨0, _⟩ => show win6_2.index t (0 : Fin 2) * 1 + 1 * (y 0).val = (y 0).val; omega
    | ⟨1, _⟩ => show win6_2.index t (1 : Fin 2) * 64 + 1 * (y 1).val = (y 1).val; omega
  have hb3 : iblk6 V c 3 t = V c main_arg9 := by
    funext y
    show V c main_arg9 (((cfg6.win 3).blk t).view.emb y) = V c main_arg9 y
    refine congrArg (V c main_arg9) ?_
    funext a; apply Fin.ext
    match a with
    | ⟨0, _⟩ => show win6_3.index t (0 : Fin 2) * 64 + 1 * (y 0).val = (y 0).val; omega
    | ⟨1, _⟩ => show win6_3.index t (1 : Fin 2) * 2 + 1 * (y 1).val = (y 1).val; omega
  have hb4 : iblk6 V c 4 t = V c main_v90 := by
    funext y
    show V c main_v90 (((cfg6.win 4).blk t).view.emb y) = V c main_v90 y
    refine congrArg (V c main_v90) ?_
    funext a; apply Fin.ext
    match a with
    | ⟨0, _⟩ => show win6_4.index t (0 : Fin 2) * 1 + 1 * (y 0).val = (y 0).val; omega
    | ⟨1, _⟩ => show win6_4.index t (1 : Fin 2) * 2 + 1 * (y 1).val = (y 1).val; omega
  have hk : k6_pay1 (F := Ideal) (iblk6 V c 0 t) (iblk6 V c 1 t) (iblk6 V c 2 t) (iblk6 V c 3 t) (iblk6 V c 4 t)
      = Cert.Net.head (V c main_v88) (V c main_arg7) (V c main_v89) (V c main_arg9) (V c main_v90) := Payload.head_of_eq hb0 hb1 hb2 hb3 hb4
  rw [hk]
  generalize Cert.Net.head (V c main_v88) (V c main_arg7) (V c main_v89) (V c main_arg9) (V c main_v90) = H
  funext j
  obtain ⟨p, q, rfl⟩ : ∃ (p : Fin 256) (q : Fin 2), j = ix2 p q := ⟨j 0, j 1, eq_ix2 j⟩
  have h1 : (win6 5).cut (grid6.coords t) H (ix2 p q) = H (ix2 p q) := rfl
  have h2 : View.read (Elt Ideal) ((View.whole main_v91).slice ((win6 5).rect t)) H (ix2 p q)
      = H (((cfg6.win 5).blk t).view.emb (ix2 p q)) := rfl
  refine h1.trans (Eq.trans ?_ h2.symm)
  refine congrArg H ?_
  funext a; apply Fin.ext
  match a with
  | ⟨0, _⟩ => show p.val = win6_5.index t (0 : Fin 2) * 256 + 1 * p.val; omega
  | ⟨1, _⟩ => show q.val = win6_5.index t (1 : Fin 2) * 2 + 1 * q.val; omega

/-- An index of the result array is in the one block iff each coordinate is in the block's range on its axis. -/
theorem mem_blk6 (t : Fin cfg6.N) (i : S256x2.Idx) :
    i ∈ ((cfg6.win 5).blk t).view.set ↔ ∀ a : Fin 2, win6_5.index t a * S256x2.size a ≤ (i a).val
      ∧ (i a).val < win6_5.index t a * S256x2.size a + S256x2.size a := by
  show i ∈ ((View.whole main_v91).slice (win6_5.rect t)).set ↔ _
  rw [View.set_slice_whole, Rect.mem_set_unit]
  exact Iff.rfl

/-- The one block is the whole array. -/
theorem cover6 (i : S256x2.Idx) : ∃ t : Fin cfg6.N, (cfg6.win 5).flush t = true ∧ i ∈ ((cfg6.win 5).blk t).view.set := by
  have hi0 : (i 0).val < 256 := (i 0).isLt
  have hi1 : (i 1).val < 2 := (i 1).isLt
  obtain ⟨a00, a01, a10, a11, a20, a21, a30, a31, a40, a41, a50, a51⟩ := idx6 t6_0
  refine ⟨t6_0, flush6_5 t6_0, ?_⟩
  rw [mem_blk6]
  intro a
  match a with
  | ⟨0, _⟩ => show win6_5.index t6_0 (0 : Fin 2) * 256 ≤ (i 0).val ∧ (i 0).val < win6_5.index t6_0 (0 : Fin 2) * 256 + 256; omega
  | ⟨1, _⟩ => show win6_5.index t6_0 (1 : Fin 2) * 2 ≤ (i 1).val ∧ (i 1).val < win6_5.index t6_0 (1 : Fin 2) * 2 + 2; omega

/-- THE ARRAY region 6 leaves: the network's head of the five arrays it was entered with. -/
theorem final6 (c : Dev nD) : (dat6 V c).arrAt 5 cfg6.N = Cert.Net.head (V c main_v88) (V c main_arg7) (V c main_v89) (V c main_arg9) (V c main_v90) :=
  (dat6 V c).arrAt_eq_of_cover 5 _ (fun t _ => flushed6 V c t) cover6

end Cert.KernelIdeal.Region

end
-- ==== Proof.HostStretches.lean ====
/-
  What each stretch of host operations of the kernel program leaves, as the network's operations.

  Between its kernel regions the program runs plain host operations. Read at the buffers the next region or stretch
  uses, each stretch's result is one of the network's whole-array operations of the contents it started from: the
  edges' source and target nodes and their normalisation before the first region; the neighbourhood sum of the
  projected rows and the bias row before each bias kernel; the per-graph mean and the two bias rows before the
  classifier. The contents the stretch starts from are any valuation: nothing here depends on which run it is.
-/
import proofs.«171516_j51496657879500_1_alg».proof.Proof.Gen.KernelIdeal.Launch
import proofs.«171516_j51496657879500_1_alg».proof.Proof.Payloads
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.ShloMosaic.StableHlo Idealize.SL.Sem

/-! ## Before the first region: the graph's structure -/

/-- The three stretches before the first region leave the edges' source nodes, -/
theorem graph_src (X : Valuation τ sig (Elt Ideal)) :
    (StableHlo.after hostOps0_2 (StableHlo.after hostOps0_1 (StableHlo.after hostOps0 X)) (Proc.devRef .tc main_v1) : IVec Cert.ReferenceIdeal.S800000 32)
      = Cert.Net.src (X (Proc.devRef .tc main_arg1)) := by
  dsimp only [hostOps0, hostOps0_1, hostOps0_2]
  after_results_simp
  rfl

/-- their target nodes, -/
theorem graph_dst (X : Valuation τ sig (Elt Ideal)) :
    (StableHlo.after hostOps0_2 (StableHlo.after hostOps0_1 (StableHlo.after hostOps0 X)) (Proc.devRef .tc main_v3) : IVec Cert.ReferenceIdeal.S800000 32)
      = Cert.Net.dst (X (Proc.devRef .tc main_arg1)) := by
  dsimp only [hostOps0, hostOps0_1, hostOps0_2]
  after_results_simp
  rfl

/-! The normalisation is read stretch by stretch: the first stretch leaves the degree's two uses (the test that it
    is positive, and its inverse square root from at least one) and a zero; the second selects between them; the
    third gathers the selection at both ends of every edge and multiplies. -/

theorem first_src (X : Valuation τ sig (Elt Ideal)) :
    (StableHlo.after hostOps0 X (Proc.devRef .tc main_v1) : IVec Cert.ReferenceIdeal.S800000 32) = Cert.Net.src (X (Proc.devRef .tc main_arg1)) := by
  dsimp only [hostOps0]
  after_results_simp
  rfl

theorem first_dst (X : Valuation τ sig (Elt Ideal)) :
    (StableHlo.after hostOps0 X (Proc.devRef .tc main_v3) : IVec Cert.ReferenceIdeal.S800000 32) = Cert.Net.dst (X (Proc.devRef .tc main_arg1)) := by
  dsimp only [hostOps0]
  after_results_simp
  rfl

theorem first_positive (X : Valuation τ sig (Elt Ideal)) :
    (StableHlo.after hostOps0 X (Proc.devRef .tc main_v9) : IVec Cert.ReferenceIdeal.S50000 1)
      = cmpf .ogt (Cert.Net.degree (X (Proc.devRef .tc main_arg1)))
          (broadcastInDim Cert.ReferenceIdeal.S50000 ![] Cert.ReferenceIdeal.Gen.bcast_S_S50000 (constant (F := Ideal) Cert.ReferenceIdeal.S_ .f32 0x00000000#32)) := by
  dsimp only [hostOps0]
  after_results_simp
  rfl

theorem first_rsqrt (X : Valuation τ sig (Elt Ideal)) :
    (StableHlo.after hostOps0 X (Proc.devRef .tc main_v12) : FVec Ideal Cert.ReferenceIdeal.S50000 .f32)
      = Host.rsqrt (F := Ideal) (maximumf (Cert.Net.degree (X (Proc.devRef .tc main_arg1)))
          (broadcastInDim Cert.ReferenceIdeal.S50000 ![] Cert.ReferenceIdeal.Gen.bcast_S_S50000 (constant (F := Ideal) Cert.ReferenceIdeal.S_ .f32 0x3F800000#32))) := by
  dsimp only [hostOps0]
  after_results_simp
  rfl

theorem first_zero (X : Valuation τ sig (Elt Ideal)) :
    (StableHlo.after hostOps0 X (Proc.devRef .tc main_cst_3) : FVec Ideal Cert.ReferenceIdeal.S_ .f32) = constant (F := Ideal) Cert.ReferenceIdeal.S_ .f32 0x00000000#32 := by
  dsimp only [hostOps0]
  after_results_simp

theorem second_select (Y : Valuation τ sig (Elt Ideal)) :
    (StableHlo.after hostOps0_1 Y (Proc.devRef .tc main_v13) : FVec Ideal Cert.ReferenceIdeal.S50000 .f32)
      = select (Y (Proc.devRef .tc main_v9)) (Y (Proc.devRef .tc main_v12))
          (broadcastInDim Cert.ReferenceIdeal.S50000 ![] Cert.ReferenceIdeal.Gen.bcast_S_S50000 (id (Y (Proc.devRef .tc main_cst_3)))) := by
  dsimp only [hostOps0_1]
  after_results_simp
  rfl

theorem second_src (Y : Valuation τ sig (Elt Ideal)) :
    StableHlo.after hostOps0_1 Y (Proc.devRef .tc main_v1) = Y (Proc.devRef .tc main_v1) := by
  dsimp only [hostOps0_1]
  after_results_simp

theorem second_dst (Y : Valuation τ sig (Elt Ideal)) :
    StableHlo.after hostOps0_1 Y (Proc.devRef .tc main_v3) = Y (Proc.devRef .tc main_v3) := by
  dsimp only [hostOps0_1]
  after_results_simp

theorem third_norm (Z : Valuation τ sig (Elt Ideal)) :
    (StableHlo.after hostOps0_2 Z (Proc.devRef .tc main_v28) : FVec Ideal Cert.ReferenceIdeal.S800000 .f32)
      = (mulf (F := Ideal) (Host.gather Cert.ReferenceIdeal.gather_S50000_S800000x1_S800000_n_0_n_n_0_1_1 (Z (Proc.devRef .tc main_v13) : FVec Ideal Cert.ReferenceIdeal.S50000 .f32) (Cert.Net.rowIndex (Z (Proc.devRef .tc main_v1))))
          (Host.gather Cert.ReferenceIdeal.gather_S50000_S800000x1_S800000_n_0_n_n_0_1_1 (Z (Proc.devRef .tc main_v13) : FVec Ideal Cert.ReferenceIdeal.S50000 .f32) (Cert.Net.rowIndex (Z (Proc.devRef .tc main_v3)))) : FVec Ideal Cert.ReferenceIdeal.S800000 .f32) := by
  dsimp only [hostOps0_2]
  after_results_simp
  rfl

/-- and their normalisation. -/
theorem graph_norm (X : Valuation τ sig (Elt Ideal)) :
    (StableHlo.after hostOps0_2 (StableHlo.after hostOps0_1 (StableHlo.after hostOps0 X)) (Proc.devRef .tc main_v28) : FVec Ideal Cert.ReferenceIdeal.S800000 .f32)
      = Cert.Net.edgeNorm (X (Proc.devRef .tc main_arg1)) := by
  rw [third_norm, second_select, second_src, second_dst, first_positive, first_rsqrt, first_zero, first_src, first_dst]
  rfl

/-! ## Before each bias kernel -/

/-- The stretch before the first bias kernel: the neighbourhood sum of the projected rows, and the bias as a one-row matrix. -/
theorem hostOps1_sum (X : Valuation τ sig (Elt Ideal)) :
    (StableHlo.after hostOps1 X (Proc.devRef .tc main_v42) : FVec Ideal Cert.ReferenceIdeal.S50000x128 .f32)
      = Cert.Net.aggregate (X (Proc.devRef .tc main_v29)) (Cert.Net.rowIndex (X (Proc.devRef .tc main_v1))) (X (Proc.devRef .tc main_v3)) (X (Proc.devRef .tc main_v28)) := by
  dsimp only [hostOps1]
  after_results_simp
  rfl

theorem hostOps1_row (X : Valuation τ sig (Elt Ideal)) :
    (StableHlo.after hostOps1 X (Proc.devRef .tc main_v43) : FVec Ideal Cert.ReferenceIdeal.S1x128 .f32) = Cert.Net.row128 (X (Proc.devRef .tc main_arg4)) := by
  dsimp only [hostOps1]
  after_results_simp
  exact Cert.Lib.row_eq 128 _ _ _ (by decide)

/-- The stretch before the second bias kernel: the neighbourhood sum of the projected rows, and the bias as a one-row matrix. -/
theorem hostOps3_sum (X : Valuation τ sig (Elt Ideal)) :
    (StableHlo.after hostOps3 X (Proc.devRef .tc main_v58) : FVec Ideal Cert.ReferenceIdeal.S50000x128 .f32)
      = Cert.Net.aggregate (X (Proc.devRef .tc main_v45)) (Cert.Net.rowIndex (X (Proc.devRef .tc main_v1))) (X (Proc.devRef .tc main_v3)) (X (Proc.devRef .tc main_v28)) := by
  dsimp only [hostOps3]
  after_results_simp
  rfl

theorem hostOps3_row (X : Valuation τ sig (Elt Ideal)) :
    (StableHlo.after hostOps3 X (Proc.devRef .tc main_v59) : FVec Ideal Cert.ReferenceIdeal.S1x128 .f32) = Cert.Net.row128 (X (Proc.devRef .tc main_arg6)) := by
  dsimp only [hostOps3]
  after_results_simp
  exact Cert.Lib.row_eq 128 _ _ _ (by decide)

/-- The stretch before the third bias kernel: the neighbourhood sum of the projected rows, and the bias as a one-row matrix. -/
theorem hostOps5_sum (X : Valuation τ sig (Elt Ideal)) :
    (StableHlo.after hostOps5 X (Proc.devRef .tc main_v74) : FVec Ideal Cert.ReferenceIdeal.S50000x128 .f32)
      = Cert.Net.aggregate (X (Proc.devRef .tc main_v61)) (Cert.Net.rowIndex (X (Proc.devRef .tc main_v1))) (X (Proc.devRef .tc main_v3)) (X (Proc.devRef .tc main_v28)) := by
  dsimp only [hostOps5]
  after_results_simp
  rfl

theorem hostOps5_row (X : Valuation τ sig (Elt Ideal)) :
    (StableHlo.after hostOps5 X (Proc.devRef .tc main_v75) : FVec Ideal Cert.ReferenceIdeal.S1x128 .f32) = Cert.Net.row128 (X (Proc.devRef .tc main_arg6)) := by
  dsimp only [hostOps5]
  after_results_simp
  exact Cert.Lib.row_eq 128 _ _ _ (by decide)

/-! ## Before the classifier -/

/-- The last stretch leaves the per-graph mean of the node rows, -/
theorem hostOps6_mean (X : Valuation τ sig (Elt Ideal)) :
    (StableHlo.after hostOps6 X (Proc.devRef .tc main_v88) : FVec Ideal Cert.ReferenceIdeal.S256x128 .f32)
      = Cert.Net.meanPool (X (Proc.devRef .tc main_v76)) (X (Proc.devRef .tc main_arg2)) := by
  dsimp only [hostOps6]
  after_results_simp
  rfl

/-- and the two layers' biases as one-row matrices. -/
theorem hostOps6_row64 (X : Valuation τ sig (Elt Ideal)) :
    (StableHlo.after hostOps6 X (Proc.devRef .tc main_v89) : FVec Ideal Cert.ReferenceIdeal.S1x64 .f32) = Cert.Net.row64 (X (Proc.devRef .tc main_arg8)) := by
  dsimp only [hostOps6]
  after_results_simp
  exact Cert.Lib.row_eq 64 _ _ _ (by decide)

theorem hostOps6_row2 (X : Valuation τ sig (Elt Ideal)) :
    (StableHlo.after hostOps6 X (Proc.devRef .tc main_v90) : FVec Ideal Cert.ReferenceIdeal.S1x2 .f32) = Cert.Net.row2 (X (Proc.devRef .tc main_arg10)) := by
  dsimp only [hostOps6]
  after_results_simp
  exact Cert.Lib.row_eq 2 _ _ _ (by decide)

end Cert.KernelIdeal.Stretch

end
-- ==== Proof.KernelValue.lean ====
/-
  The idealized kernel computes the network.

  The kernel program's buffers are followed from the launch to the return, boundary by boundary. Before the first
  region the host operations leave the edges' source and target nodes and their normalisation; these three, and the
  arguments, are written by nothing afterwards, so every later stretch and region finds them as they were. Each
  projection region leaves the projection of what the previous segment left by its weights; each stretch before a
  bias kernel leaves the neighbourhood sum of that projection and the bias as a one-row matrix; each bias kernel adds
  the row and, after the first two convolutions, rectifies; the last stretch takes the per-graph mean; the classifier
  region leaves the head of the mean. Composed, the result buffer at the return holds the network of Proof/Net.lean at
  the launch contents of the eleven arguments.
-/
import proofs.«171516_j51496657879500_1_alg».proof.Proof.KernelRun
import proofs.«171516_j51496657879500_1_alg».proof.Proof.Regions
import proofs.«171516_j51496657879500_1_alg».proof.Proof.HostStretches

set_option maxRecDepth 16384

noncomputable section

namespace Cert.KernelIdeal.NetValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A buffer that no operation of a stretch writes holds after the stretch what it held before. -/
local macro "not_written " ops:ident b:ident : term =>
  `(StableHlo.after_of_forall_not_mem (b := Proc.devRef .tc $b) _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What is written once and found unchanged later -/

theorem keep_arg0_0_3 (c : Dev nD) : W3 m ρ c (Proc.devRef .tc main_arg0) = W0 m ρ c (Proc.devRef .tc main_arg0) :=
  calc W3 m ρ c (Proc.devRef .tc main_arg0)
    _ = W2 m ρ c (Proc.devRef .tc main_arg0) := not_written hostOps0_2 main_arg0
    _ = W1 m ρ c (Proc.devRef .tc main_arg0) := not_written hostOps0_1 main_arg0
    _ = W0 m ρ c (Proc.devRef .tc main_arg0) := not_written hostOps0 main_arg0

theorem keep_arg3_0_3 (c : Dev nD) : W3 m ρ c (Proc.devRef .tc main_arg3) = W0 m ρ c (Proc.devRef .tc main_arg3) :=
  calc W3 m ρ c (Proc.devRef .tc main_arg3)
    _ = W2 m ρ c (Proc.devRef .tc main_arg3) := not_written hostOps0_2 main_arg3
    _ = W1 m ρ c (Proc.devRef .tc main_arg3) := not_written hostOps0_1 main_arg3
    _ = W0 m ρ c (Proc.devRef .tc main_arg3) := not_written hostOps0 main_arg3

theorem keep_v1_3_4 (c : Dev nD) : W4 m ρ c (Proc.devRef .tc main_v1) = W3 m ρ c (Proc.devRef .tc main_v1) :=
  calc W4 m ρ c (Proc.devRef .tc main_v1)
    _ = W3 m ρ c (Proc.devRef .tc main_v1) := W4_of_ne m ρ c main_v1 (by decide)

theorem keep_v1_4_7 (c : Dev nD) : W7 m ρ c (Proc.devRef .tc main_v1) = W4 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := W6_of_ne m ρ c main_v1 (by decide)
    _ = W4 m ρ c (Proc.devRef .tc main_v1) := not_written hostOps1 main_v1

theorem keep_v1_7_10 (c : Dev nD) : W10 m ρ c (Proc.devRef .tc main_v1) = W7 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := W9_of_ne m ρ c main_v1 (by decide)
    _ = W7 m ρ c (Proc.devRef .tc main_v1) := not_written hostOps3 main_v1

theorem keep_v3_3_4 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem keep_v3_4_7 (c : Dev nD) : W7 m ρ c (Proc.devRef .tc main_v3) = W4 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := not_written hostOps1 main_v3

theorem keep_v3_7_10 (c : Dev nD) : W10 m ρ c (Proc.devRef .tc main_v3) = W7 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := not_written hostOps3 main_v3

theorem keep_v28_3_4 (c : Dev nD) : W4 m ρ c (Proc.devRef .tc main_v28) = W3 m ρ c (Proc.devRef .tc main_v28) :=
  calc W4 m ρ c (Proc.devRef .tc main_v28)
    _ = W3 m ρ c (Proc.devRef .tc main_v28) := W4_of_ne m ρ c main_v28 (by decide)

theorem keep_v28_4_7 (c : Dev nD) : W7 m ρ c (Proc.devRef .tc main_v28) = W4 m ρ c (Proc.devRef .tc main_v28) :=
  calc W7 m ρ c (Proc.devRef .tc main_v28)
    _ = W6 m ρ c (Proc.devRef .tc main_v28) := W7_of_ne m ρ c main_v28 (by decide)
    _ = W5 m ρ c (Proc.devRef .tc main_v28) := W6_of_ne m ρ c main_v28 (by decide)
    _ = W4 m ρ c (Proc.devRef .tc main_v28) := not_written hostOps1 main_v28

theorem keep_v28_7_10 (c : Dev nD) : W10 m ρ c (Proc.devRef .tc main_v28) = W7 m ρ c (Proc.devRef .tc main_v28) :=
  calc W10 m ρ c (Proc.devRef .tc main_v28)
    _ = W9 m ρ c (Proc.devRef .tc main_v28) := W10_of_ne m ρ c main_v28 (by decide)
    _ = W8 m ρ c (Proc.devRef .tc main_v28) := W9_of_ne m ρ c main_v28 (by decide)
    _ = W7 m ρ c (Proc.devRef .tc main_v28) := not_written hostOps3 main_v28

theorem keep_arg4_0_4 (c : Dev nD) : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := not_written hostOps0_2 main_arg4
    _ = W1 m ρ c (Proc.devRef .tc main_arg4) := not_written hostOps0_1 main_arg4
    _ = W0 m ρ c (Proc.devRef .tc main_arg4) := not_written hostOps0 main_arg4

theorem keep_arg5_0_6 (c : Dev nD) : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := not_written hostOps1 main_arg5
    _ = W3 m ρ c (Proc.devRef .tc main_arg5) := W4_of_ne m ρ c main_arg5 (by decide)
    _ = W2 m ρ c (Proc.devRef .tc main_arg5) := not_written hostOps0_2 main_arg5
    _ = W1 m ρ c (Proc.devRef .tc main_arg5) := not_written hostOps0_1 main_arg5
    _ = W0 m ρ c (Proc.devRef .tc main_arg5) := not_written hostOps0 main_arg5

theorem keep_arg5_6_9 (c : Dev nD) : W9 m ρ c (Proc.devRef .tc main_arg5) = W6 m ρ c (Proc.devRef .tc main_arg5) :=
  calc W9 m ρ c (Proc.devRef .tc main_arg5)
    _ = W8 m ρ c (Proc.devRef .tc main_arg5) := W9_of_ne m ρ c main_arg5 (by decide)
    _ = W7 m ρ c (Proc.devRef .tc main_arg5) := not_written hostOps3 main_arg5
    _ = W6 m ρ c (Proc.devRef .tc main_arg5) := (W7_arr m ρ c 1).trans (((dat2 (V6 m ρ) c).arrAt_in 1 rfl _).trans (A_eq2 (V6 m ρ) c 1))

theorem keep_arg6_0_7 (c : Dev nD) : W7 m ρ c (Proc.devRef .tc main_arg6) = W0 m ρ c (Proc.devRef .tc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := not_written hostOps1 main_arg6
    _ = W3 m ρ c (Proc.devRef .tc main_arg6) := W4_of_ne m ρ c main_arg6 (by decide)
    _ = W2 m ρ c (Proc.devRef .tc main_arg6) := not_written hostOps0_2 main_arg6
    _ = W1 m ρ c (Proc.devRef .tc main_arg6) := not_written hostOps0_1 main_arg6
    _ = W0 m ρ c (Proc.devRef .tc main_arg6) := not_written hostOps0 main_arg6

theorem keep_arg6_7_10 (c : Dev nD) : W10 m ρ c (Proc.devRef .tc main_arg6) = W7 m ρ c (Proc.devRef .tc main_arg6) :=
  calc W10 m ρ c (Proc.devRef .tc main_arg6)
    _ = W9 m ρ c (Proc.devRef .tc main_arg6) := W10_of_ne m ρ c main_arg6 (by decide)
    _ = W8 m ρ c (Proc.devRef .tc main_arg6) := W9_of_ne m ρ c main_arg6 (by decide)
    _ = W7 m ρ c (Proc.devRef .tc main_arg6) := not_written hostOps3 main_arg6

theorem keep_arg2_0_12 (c : Dev nD) : W12 m ρ c (Proc.devRef .tc main_arg2) = W0 m ρ c (Proc.devRef .tc main_arg2) :=
  calc W12 m ρ c (Proc.devRef .tc main_arg2)
    _ = W11 m ρ c (Proc.devRef .tc main_arg2) := W12_of_ne m ρ c main_arg2 (by decide)
    _ = W10 m ρ c (Proc.devRef .tc main_arg2) := not_written hostOps5 main_arg2
    _ = W9 m ρ c (Proc.devRef .tc main_arg2) := W10_of_ne m ρ c main_arg2 (by decide)
    _ = W8 m ρ c (Proc.devRef .tc main_arg2) := W9_of_ne m ρ c main_arg2 (by decide)
    _ = W7 m ρ c (Proc.devRef .tc main_arg2) := not_written hostOps3 main_arg2
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := not_written hostOps1 main_arg2
    _ = W3 m ρ c (Proc.devRef .tc main_arg2) := W4_of_ne m ρ c main_arg2 (by decide)
    _ = W2 m ρ c (Proc.devRef .tc main_arg2) := not_written hostOps0_2 main_arg2
    _ = W1 m ρ c (Proc.devRef .tc main_arg2) := not_written hostOps0_1 main_arg2
    _ = W0 m ρ c (Proc.devRef .tc main_arg2) := not_written hostOps0 main_arg2

theorem keep_arg8_0_12 (c : Dev nD) : W12 m ρ c (Proc.devRef .tc main_arg8) = W0 m ρ c (Proc.devRef .tc main_arg8) :=
  calc W12 m ρ c (Proc.devRef .tc main_arg8)
    _ = W11 m ρ c (Proc.devRef .tc main_arg8) := W12_of_ne m ρ c main_arg8 (by decide)
    _ = W10 m ρ c (Proc.devRef .tc main_arg8) := not_written hostOps5 main_arg8
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := not_written hostOps3 main_arg8
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := not_written hostOps1 main_arg8
    _ = W3 m ρ c (Proc.devRef .tc main_arg8) := W4_of_ne m ρ c main_arg8 (by decide)
    _ = W2 m ρ c (Proc.devRef .tc main_arg8) := not_written hostOps0_2 main_arg8
    _ = W1 m ρ c (Proc.devRef .tc main_arg8) := not_written hostOps0_1 main_arg8
    _ = W0 m ρ c (Proc.devRef .tc main_arg8) := not_written hostOps0 main_arg8

theorem keep_arg10_0_12 (c : Dev nD) : W12 m ρ c (Proc.devRef .tc main_arg10) = W0 m ρ c (Proc.devRef .tc main_arg10) :=
  calc W12 m ρ c (Proc.devRef .tc main_arg10)
    _ = W11 m ρ c (Proc.devRef .tc main_arg10) := W12_of_ne m ρ c main_arg10 (by decide)
    _ = W10 m ρ c (Proc.devRef .tc main_arg10) := not_written hostOps5 main_arg10
    _ = W9 m ρ c (Proc.devRef .tc main_arg10) := W10_of_ne m ρ c main_arg10 (by decide)
    _ = W8 m ρ c (Proc.devRef .tc main_arg10) := W9_of_ne m ρ c main_arg10 (by decide)
    _ = W7 m ρ c (Proc.devRef .tc main_arg10) := not_written hostOps3 main_arg10
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := not_written hostOps1 main_arg10
    _ = W3 m ρ c (Proc.devRef .tc main_arg10) := W4_of_ne m ρ c main_arg10 (by decide)
    _ = W2 m ρ c (Proc.devRef .tc main_arg10) := not_written hostOps0_2 main_arg10
    _ = W1 m ρ c (Proc.devRef .tc main_arg10) := not_written hostOps0_1 main_arg10
    _ = W0 m ρ c (Proc.devRef .tc main_arg10) := not_written hostOps0 main_arg10

theorem keep_arg7_0_13 (c : Dev nD) : W13 m ρ c (Proc.devRef .tc main_arg7) = W0 m ρ c (Proc.devRef .tc main_arg7) :=
  calc W13 m ρ c (Proc.devRef .tc main_arg7)
    _ = W12 m ρ c (Proc.devRef .tc main_arg7) := not_written hostOps6 main_arg7
    _ = W11 m ρ c (Proc.devRef .tc main_arg7) := W12_of_ne m ρ c main_arg7 (by decide)
    _ = W10 m ρ c (Proc.devRef .tc main_arg7) := not_written hostOps5 main_arg7
    _ = W9 m ρ c (Proc.devRef .tc main_arg7) := W10_of_ne m ρ c main_arg7 (by decide)
    _ = W8 m ρ c (Proc.devRef .tc main_arg7) := W9_of_ne m ρ c main_arg7 (by decide)
    _ = W7 m ρ c (Proc.devRef .tc main_arg7) := not_written hostOps3 main_arg7
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := not_written hostOps1 main_arg7
    _ = W3 m ρ c (Proc.devRef .tc main_arg7) := W4_of_ne m ρ c main_arg7 (by decide)
    _ = W2 m ρ c (Proc.devRef .tc main_arg7) := not_written hostOps0_2 main_arg7
    _ = W1 m ρ c (Proc.devRef .tc main_arg7) := not_written hostOps0_1 main_arg7
    _ = W0 m ρ c (Proc.devRef .tc main_arg7) := not_written hostOps0 main_arg7

theorem keep_arg9_0_13 (c : Dev nD) : W13 m ρ c (Proc.devRef .tc main_arg9) = W0 m ρ c (Proc.devRef .tc main_arg9) :=
  calc W13 m ρ c (Proc.devRef .tc main_arg9)
    _ = W12 m ρ c (Proc.devRef .tc main_arg9) := not_written hostOps6 main_arg9
    _ = W11 m ρ c (Proc.devRef .tc main_arg9) := W12_of_ne m ρ c main_arg9 (by decide)
    _ = W10 m ρ c (Proc.devRef .tc main_arg9) := not_written hostOps5 main_arg9
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := not_written hostOps3 main_arg9
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := not_written hostOps1 main_arg9
    _ = W3 m ρ c (Proc.devRef .tc main_arg9) := W4_of_ne m ρ c main_arg9 (by decide)
    _ = W2 m ρ c (Proc.devRef .tc main_arg9) := not_written hostOps0_2 main_arg9
    _ = W1 m ρ c (Proc.devRef .tc main_arg9) := not_written hostOps0_1 main_arg9
    _ = W0 m ρ c (Proc.devRef .tc main_arg9) := not_written hostOps0 main_arg9

/-! ## The graph's structure, at the first region's entry and wherever it is read again -/

theorem src_at3 (c : Dev nD) : (W3 m ρ c (Proc.devRef .tc main_v1) : IVec Cert.ReferenceIdeal.S800000 32) = Cert.Net.src (m ((c : Thread nD τ).loc main_arg1)) :=
  Stretch.graph_src (W0 m ρ c)
theorem dst_at3 (c : Dev nD) : (W3 m ρ c (Proc.devRef .tc main_v3) : IVec Cert.ReferenceIdeal.S800000 32) = Cert.Net.dst (m ((c : Thread nD τ).loc main_arg1)) :=
  Stretch.graph_dst (W0 m ρ c)
theorem norm_at3 (c : Dev nD) : (W3 m ρ c (Proc.devRef .tc main_v28) : FVec Ideal Cert.ReferenceIdeal.S800000 .f32) = Cert.Net.edgeNorm (m ((c : Thread nD τ).loc main_arg1)) :=
  Stretch.graph_norm (W0 m ρ c)

theorem src_at4 (c : Dev nD) : (W4 m ρ c (Proc.devRef .tc main_v1) : IVec Cert.ReferenceIdeal.S800000 32) = Cert.Net.src (m ((c : Thread nD τ).loc main_arg1)) :=
  (keep_v1_3_4 m ρ c).trans (src_at3 m ρ c)
theorem dst_at4 (c : Dev nD) : (W4 m ρ c (Proc.devRef .tc main_v3) : IVec Cert.ReferenceIdeal.S800000 32) = Cert.Net.dst (m ((c : Thread nD τ).loc main_arg1)) :=
  (keep_v3_3_4 m ρ c).trans (dst_at3 m ρ c)
theorem norm_at4 (c : Dev nD) : (W4 m ρ c (Proc.devRef .tc main_v28) : FVec Ideal Cert.ReferenceIdeal.S800000 .f32) = Cert.Net.edgeNorm (m ((c : Thread nD τ).loc main_arg1)) :=
  (keep_v28_3_4 m ρ c).trans (norm_at3 m ρ c)

theorem src_at7 (c : Dev nD) : (W7 m ρ c (Proc.devRef .tc main_v1) : IVec Cert.ReferenceIdeal.S800000 32) = Cert.Net.src (m ((c : Thread nD τ).loc main_arg1)) :=
  ((keep_v1_4_7 m ρ c).trans (keep_v1_3_4 m ρ c)).trans (src_at3 m ρ c)
theorem dst_at7 (c : Dev nD) : (W7 m ρ c (Proc.devRef .tc main_v3) : IVec Cert.ReferenceIdeal.S800000 32) = Cert.Net.dst (m ((c : Thread nD τ).loc main_arg1)) :=
  ((keep_v3_4_7 m ρ c).trans (keep_v3_3_4 m ρ c)).trans (dst_at3 m ρ c)
theorem norm_at7 (c : Dev nD) : (W7 m ρ c (Proc.devRef .tc main_v28) : FVec Ideal Cert.ReferenceIdeal.S800000 .f32) = Cert.Net.edgeNorm (m ((c : Thread nD τ).loc main_arg1)) :=
  ((keep_v28_4_7 m ρ c).trans (keep_v28_3_4 m ρ c)).trans (norm_at3 m ρ c)

theorem src_at10 (c : Dev nD) : (W10 m ρ c (Proc.devRef .tc main_v1) : IVec Cert.ReferenceIdeal.S800000 32) = Cert.Net.src (m ((c : Thread nD τ).loc main_arg1)) :=
  ((keep_v1_7_10 m ρ c).trans ((keep_v1_4_7 m ρ c).trans (keep_v1_3_4 m ρ c))).trans (src_at3 m ρ c)
theorem dst_at10 (c : Dev nD) : (W10 m ρ c (Proc.devRef .tc main_v3) : IVec Cert.ReferenceIdeal.S800000 32) = Cert.Net.dst (m ((c : Thread nD τ).loc main_arg1)) :=
  ((keep_v3_7_10 m ρ c).trans ((keep_v3_4_7 m ρ c).trans (keep_v3_3_4 m ρ c))).trans (dst_at3 m ρ c)
theorem norm_at10 (c : Dev nD) : (W10 m ρ c (Proc.devRef .tc main_v28) : FVec Ideal Cert.ReferenceIdeal.S800000 .f32) = Cert.Net.edgeNorm (m ((c : Thread nD τ).loc main_arg1)) :=
  ((keep_v28_7_10 m ρ c).trans ((keep_v28_4_7 m ρ c).trans (keep_v28_3_4 m ρ c))).trans (norm_at3 m ρ c)

/-! ## The first convolution -/

/-- Region 0 leaves the projection of the node features. -/
theorem proj1 (c : Dev nD) : (W4 m ρ c (Proc.devRef .tc main_v29) : FVec Ideal Cert.ReferenceIdeal.S50000x128 .f32) = Cert.Net.project (m ((c : Thread nD τ).loc main_arg0)) (m ((c : Thread nD τ).loc main_arg3)) := by
  refine ((W4_arr m ρ c 2).trans (Region.final0 (V3 m ρ) c)).trans ?_
  show Cert.Net.project (W3 m ρ c (Proc.devRef .tc main_arg0)) (W3 m ρ c (Proc.devRef .tc main_arg3)) = _
  rw [keep_arg0_0_3, keep_arg3_0_3]

theorem sum1 (c : Dev nD) : (W5 m ρ c (Proc.devRef .tc main_v42) : FVec Ideal Cert.ReferenceIdeal.S50000x128 .f32)
    = Cert.Net.aggregate (Cert.Net.project (m ((c : Thread nD τ).loc main_arg0)) (m ((c : Thread nD τ).loc main_arg3))) (Cert.Net.rowIndex (Cert.Net.src (m ((c : Thread nD τ).loc main_arg1)))) (Cert.Net.dst (m ((c : Thread nD τ).loc main_arg1))) (Cert.Net.edgeNorm (m ((c : Thread nD τ).loc main_arg1))) := by
  refine (Stretch.hostOps1_sum (W4 m ρ c)).trans ?_
  rw [proj1, src_at4, dst_at4, norm_at4]

theorem row1 (c : Dev nD) : (W5 m ρ c (Proc.devRef .tc main_v43) : FVec Ideal Cert.ReferenceIdeal.S1x128 .f32) = Cert.Net.row128 (m ((c : Thread nD τ).loc main_arg4)) := by
  refine (Stretch.hostOps1_row (W4 m ρ c)).trans ?_
  rw [keep_arg4_0_4]

/-- Region 1 leaves the first convolution, rectified. -/
theorem hidden1 (c : Dev nD) : (W6 m ρ c (Proc.devRef .tc main_v44) : FVec Ideal Cert.ReferenceIdeal.S50000x128 .f32) = (Cert.Net.rectify (Cert.Net.conv (m ((c : Thread nD τ).loc main_arg0)) (m ((c : Thread nD τ).loc main_arg3)) (Cert.Net.row128 (m ((c : Thread nD τ).loc main_arg4))) (m ((c : Thread nD τ).loc main_arg1)))) := by
  refine ((W6_arr m ρ c 2).trans (Region.final1 (V5 m ρ) c)).trans ?_
  show Cert.Net.rectify (Cert.Net.addRow (W5 m ρ c (Proc.devRef .tc main_v42)) (W5 m ρ c (Proc.devRef .tc main_v43))) = _
  rw [sum1, row1]
  rfl

/-! ## The second convolution -/

theorem proj2 (c : Dev nD) : (W7 m ρ c (Proc.devRef .tc main_v45) : FVec Ideal Cert.ReferenceIdeal.S50000x128 .f32) = Cert.Net.project (Cert.Net.rectify (Cert.Net.conv (m ((c : Thread nD τ).loc main_arg0)) (m ((c : Thread nD τ).loc main_arg3)) (Cert.Net.row128 (m ((c : Thread nD τ).loc main_arg4))) (m ((c : Thread nD τ).loc main_arg1)))) (m ((c : Thread nD τ).loc main_arg5)) := by
  refine ((W7_arr m ρ c 2).trans (Region.final2 (V6 m ρ) c)).trans ?_
  show Cert.Net.project (W6 m ρ c (Proc.devRef .tc main_v44)) (W6 m ρ c (Proc.devRef .tc main_arg5)) = _
  rw [hidden1, keep_arg5_0_6]

theorem sum2 (c : Dev nD) : (W8 m ρ c (Proc.devRef .tc main_v58) : FVec Ideal Cert.ReferenceIdeal.S50000x128 .f32)
    = Cert.Net.aggregate (Cert.Net.project (Cert.Net.rectify (Cert.Net.conv (m ((c : Thread nD τ).loc main_arg0)) (m ((c : Thread nD τ).loc main_arg3)) (Cert.Net.row128 (m ((c : Thread nD τ).loc main_arg4))) (m ((c : Thread nD τ).loc main_arg1)))) (m ((c : Thread nD τ).loc main_arg5))) (Cert.Net.rowIndex (Cert.Net.src (m ((c : Thread nD τ).loc main_arg1)))) (Cert.Net.dst (m ((c : Thread nD τ).loc main_arg1))) (Cert.Net.edgeNorm (m ((c : Thread nD τ).loc main_arg1))) := by
  refine (Stretch.hostOps3_sum (W7 m ρ c)).trans ?_
  rw [proj2, src_at7, dst_at7, norm_at7]

theorem row2 (c : Dev nD) : (W8 m ρ c (Proc.devRef .tc main_v59) : FVec Ideal Cert.ReferenceIdeal.S1x128 .f32) = Cert.Net.row128 (m ((c : Thread nD τ).loc main_arg6)) := by
  refine (Stretch.hostOps3_row (W7 m ρ c)).trans ?_
  rw [keep_arg6_0_7]

theorem hidden2 (c : Dev nD) : (W9 m ρ c (Proc.devRef .tc main_v60) : FVec Ideal Cert.ReferenceIdeal.S50000x128 .f32) = (Cert.Net.rectify (Cert.Net.conv (Cert.Net.rectify (Cert.Net.conv (m ((c : Thread nD τ).loc main_arg0)) (m ((c : Thread nD τ).loc main_arg3)) (Cert.Net.row128 (m ((c : Thread nD τ).loc main_arg4))) (m ((c : Thread nD τ).loc main_arg1)))) (m ((c : Thread nD τ).loc main_arg5)) (Cert.Net.row128 (m ((c : Thread nD τ).loc main_arg6))) (m ((c : Thread nD τ).loc main_arg1)))) := by
  refine ((W9_arr m ρ c 2).trans (Region.final3 (V8 m ρ) c)).trans ?_
  show Cert.Net.rectify (Cert.Net.addRow (W8 m ρ c (Proc.devRef .tc main_v58)) (W8 m ρ c (Proc.devRef .tc main_v59))) = _
  rw [sum2, row2]
  rfl

/-! ## The third convolution -/

theorem proj3 (c : Dev nD) : (W10 m ρ c (Proc.devRef .tc main_v61) : FVec Ideal Cert.ReferenceIdeal.S50000x128 .f32) = Cert.Net.project (Cert.Net.rectify (Cert.Net.conv (Cert.Net.rectify (Cert.Net.conv (m ((c : Thread nD τ).loc main_arg0)) (m ((c : Thread nD τ).loc main_arg3)) (Cert.Net.row128 (m ((c : Thread nD τ).loc main_arg4))) (m ((c : Thread nD τ).loc main_arg1)))) (m ((c : Thread nD τ).loc main_arg5)) (Cert.Net.row128 (m ((c : Thread nD τ).loc main_arg6))) (m ((c : Thread nD τ).loc main_arg1)))) (m ((c : Thread nD τ).loc main_arg5)) := by
  refine ((W10_arr m ρ c 2).trans (Region.final4 (V9 m ρ) c)).trans ?_
  show Cert.Net.project (W9 m ρ c (Proc.devRef .tc main_v60)) (W9 m ρ c (Proc.devRef .tc main_arg5)) = _
  rw [hidden2, keep_arg5_6_9, keep_arg5_0_6]

theorem sum3 (c : Dev nD) : (W11 m ρ c (Proc.devRef .tc main_v74) : FVec Ideal Cert.ReferenceIdeal.S50000x128 .f32)
    = Cert.Net.aggregate (Cert.Net.project (Cert.Net.rectify (Cert.Net.conv (Cert.Net.rectify (Cert.Net.conv (m ((c : Thread nD τ).loc main_arg0)) (m ((c : Thread nD τ).loc main_arg3)) (Cert.Net.row128 (m ((c : Thread nD τ).loc main_arg4))) (m ((c : Thread nD τ).loc main_arg1)))) (m ((c : Thread nD τ).loc main_arg5)) (Cert.Net.row128 (m ((c : Thread nD τ).loc main_arg6))) (m ((c : Thread nD τ).loc main_arg1)))) (m ((c : Thread nD τ).loc main_arg5))) (Cert.Net.rowIndex (Cert.Net.src (m ((c : Thread nD τ).loc main_arg1)))) (Cert.Net.dst (m ((c : Thread nD τ).loc main_arg1))) (Cert.Net.edgeNorm (m ((c : Thread nD τ).loc main_arg1))) := by
  refine (Stretch.hostOps5_sum (W10 m ρ c)).trans ?_
  rw [proj3, src_at10, dst_at10, norm_at10]

theorem row3 (c : Dev nD) : (W11 m ρ c (Proc.devRef .tc main_v75) : FVec Ideal Cert.ReferenceIdeal.S1x128 .f32) = Cert.Net.row128 (m ((c : Thread nD τ).loc main_arg6)) := by
  refine (Stretch.hostOps5_row (W10 m ρ c)).trans ?_
  rw [keep_arg6_7_10, keep_arg6_0_7]

theorem hidden3 (c : Dev nD) : (W12 m ρ c (Proc.devRef .tc main_v76) : FVec Ideal Cert.ReferenceIdeal.S50000x128 .f32) = (Cert.Net.conv (Cert.Net.rectify (Cert.Net.conv (Cert.Net.rectify (Cert.Net.conv (m ((c : Thread nD τ).loc main_arg0)) (m ((c : Thread nD τ).loc main_arg3)) (Cert.Net.row128 (m ((c : Thread nD τ).loc main_arg4))) (m ((c : Thread nD τ).loc main_arg1)))) (m ((c : Thread nD τ).loc main_arg5)) (Cert.Net.row128 (m ((c : Thread nD τ).loc main_arg6))) (m ((c : Thread nD τ).loc main_arg1)))) (m ((c : Thread nD τ).loc main_arg5)) (Cert.Net.row128 (m ((c : Thread nD τ).loc main_arg6))) (m ((c : Thread nD τ).loc main_arg1))) := by
  refine ((W12_arr m ρ c 2).trans (Region.final5 (V11 m ρ) c)).trans ?_
  show Cert.Net.addRow (W11 m ρ c (Proc.devRef .tc main_v74)) (W11 m ρ c (Proc.devRef .tc main_v75)) = _
  rw [sum3, row3]
  rfl

/-! ## The mean and the head -/

theorem pooled (c : Dev nD) : (W13 m ρ c (Proc.devRef .tc main_v88) : FVec Ideal Cert.ReferenceIdeal.S256x128 .f32) = Cert.Net.meanPool (Cert.Net.conv (Cert.Net.rectify (Cert.Net.conv (Cert.Net.rectify (Cert.Net.conv (m ((c : Thread nD τ).loc main_arg0)) (m ((c : Thread nD τ).loc main_arg3)) (Cert.Net.row128 (m ((c : Thread nD τ).loc main_arg4))) (m ((c : Thread nD τ).loc main_arg1)))) (m ((c : Thread nD τ).loc main_arg5)) (Cert.Net.row128 (m ((c : Thread nD τ).loc main_arg6))) (m ((c : Thread nD τ).loc main_arg1)))) (m ((c : Thread nD τ).loc main_arg5)) (Cert.Net.row128 (m ((c : Thread nD τ).loc main_arg6))) (m ((c : Thread nD τ).loc main_arg1))) (m ((c : Thread nD τ).loc main_arg2)) := by
  refine (Stretch.hostOps6_mean (W12 m ρ c)).trans ?_
  rw [hidden3, keep_arg2_0_12]

theorem rowF (c : Dev nD) : (W13 m ρ c (Proc.devRef .tc main_v89) : FVec Ideal Cert.ReferenceIdeal.S1x64 .f32) = Cert.Net.row64 (m ((c : Thread nD τ).loc main_arg8)) := by
  refine (Stretch.hostOps6_row64 (W12 m ρ c)).trans ?_
  rw [keep_arg8_0_12]

theorem rowL (c : Dev nD) : (W13 m ρ c (Proc.devRef .tc main_v90) : FVec Ideal Cert.ReferenceIdeal.S1x2 .f32) = Cert.Net.row2 (m ((c : Thread nD τ).loc main_arg10)) := by
  refine (Stretch.hostOps6_row2 (W12 m ρ c)).trans ?_
  rw [keep_arg10_0_12]

/-- THE RESULT BUFFER at the return holds the network of the launch contents of the eleven arguments. -/
theorem result_eq_net (c : Dev nD) : (W14 m ρ c (Proc.devRef .tc main_v91) : FVec Ideal Cert.ReferenceIdeal.S256x2 .f32)
    = Cert.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W14_arr m ρ c 5).trans (Region.final6 (V13 m ρ) c)).trans ?_
  show Cert.Net.head (W13 m ρ c (Proc.devRef .tc main_v88)) (W13 m ρ c (Proc.devRef .tc main_arg7)) (W13 m ρ c (Proc.devRef .tc main_v89)) (W13 m ρ c (Proc.devRef .tc main_arg9)) (W13 m ρ c (Proc.devRef .tc main_v90)) = _
  rw [pooled, rowF, rowL, keep_arg7_0_13, keep_arg9_0_13]
  rfl

end Cert.KernelIdeal.NetValue

end
-- ==== Proof.RefValue.lean ====
/-
  The reference computes the network.

  The reference program is a straight line of host operations; its run ends with the result buffer at those
  operations' composed term of the argument arrays. That term IS the network of Proof/Net.lean at the arguments: the
  same operations applied to the same operands in the same order, the degree and the edges' normalisation written
  out three times where the network names them once.
-/
import proofs.«171516_j51496657879500_1_alg».proof.Proof.RefRun
import proofs.«171516_j51496657879500_1_alg».proof.Proof.Net

noncomputable section

namespace Cert.ReferenceIdeal.RefValue

open Cert.ReferenceIdeal Cert.ReferenceIdeal.Gen Idealize.ShloMosaic Idealize.ShloMosaic.TcCoe Idealize.SL.Sem

set_option maxRecDepth 16384 in
/-- The reference run's result term is the network of the launch contents of the eleven arguments. -/
theorem res_eq_net (m : (ℓ : Loc nD τ sig) → Buf (Elt Ideal) ℓ) (c : Dev nD) :
    Cert.ReferenceIdeal.ValueP.res_main_v163 (F := Ideal) m c
      = Cert.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.ValueP.res_main_v163
  rfl

end Cert.ReferenceIdeal.RefValue

end
-- ==== Proof.lean ====
/-
  A three-layer graph convolution network with a mean pool and a softmax classifier head, as a tiled kernel program
  and as a plain reference, compute the same function of their inputs on the extended reals.

  Both programs compute Proof/Net.lean's network: each convolution projects the node rows by a dense matrix, sums
  over every node's incoming edges the projected row of the source node scaled by d_src^(-1/2) * d_dst^(-1/2), and adds
  a bias row; the first two are rectified; the nodes of each graph are averaged; a two-layer head ends in a softmax.
  The kernel program computes the dense pieces — the three projections, the bias additions, the head — in seven
  kernel regions over row blocks, with a change of float format that is the identity here, and the gathers, the
  scatters and the mean on the host; the reference is host operations throughout, and recomputes the degree and the
  edges' normalisation at each convolution. Nothing but the grouping differs: a matrix product into a zero accumulator
  is the host's product, a block of rows of a row-wise function is the function's rows, a lane maximum and a lane
  sum are the host's reductions. No algebraic law relates the two sides, so the inputs' finiteness is not used.

  The kernel program's run with its result named is Proof/KernelRun.lean, what its regions and host stretches leave
  is Proof/Regions.lean and Proof/HostStretches.lean over the bodies read in Proof/Payloads.lean, and their composition
  is Proof/KernelValue.lean; the reference's run is Proof/RefRun.lean and its result is the network by
  Proof/RefValue.lean.
-/
import proofs.«171516_j51496657879500_1_alg».proof.Defs
import proofs.«171516_j51496657879500_1_alg».proof.Proof.Gen.Kernel
import proofs.«171516_j51496657879500_1_alg».proof.Proof.Gen.Kernel.Skeleton
import proofs.«171516_j51496657879500_1_alg».proof.Proof.Gen.Kernel.Launch
import proofs.«171516_j51496657879500_1_alg».proof.Proof.Gen.Kernel.Points
import proofs.«171516_j51496657879500_1_alg».proof.Proof.Gen.Kernel.Frame
import proofs.«171516_j51496657879500_1_alg».proof.Proof.Gen.KernelIdeal
import proofs.«171516_j51496657879500_1_alg».proof.Proof.Gen.KernelIdeal.Skeleton
import proofs.«171516_j51496657879500_1_alg».proof.Proof.Gen.KernelIdeal.Launch
import proofs.«171516_j51496657879500_1_alg».proof.Proof.Gen.KernelIdeal.Points
import proofs.«171516_j51496657879500_1_alg».proof.Proof.Gen.KernelIdeal.Frame
import proofs.«171516_j51496657879500_1_alg».proof.Proof.Gen.ReferenceIdeal
import proofs.«171516_j51496657879500_1_alg».proof.Proof.Gen.Pre_finite_inputs
import proofs.«171516_j51496657879500_1_alg».proof.Proof.KernelValue
import proofs.«171516_j51496657879500_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the network of the arguments in their result
    buffers: the kernel program by following its buffers from the launch to the return, the reference because its
    composed term is the network. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.NetValue.result_eq_net m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7, a8, a9, a10⟩ := hagree c
    rw [Cert.ReferenceIdeal.RefValue.res_eq_net m' c, a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
